-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S128 .f32) (main_arg7 : FVec F S128x2 .f32) (main_arg8 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x2 .f32 := Host.absf main_arg7
  let main_cst_8 : FVec F S_ .f32 := constant S_ .f32 0x7F800000#32
  let main_v25 : FVec F S128x2 .f32 := broadcastInDim S128x2 ![] bcast_S_S128x2 main_cst_8
  let main_v26 : IVec S128x2 1 := cmpf .olt main_v24 main_v25
  let main_c_9 : IVec S_ 1 := constantI S_ 1 1#1
  let main_v27 : IVec S_ 1 := (fun x v => Host.reduce IntOp.andi x v reducesTo_S128x2_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x2 .f32) (main_arg8 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S10000x128 : Shape := ⟨2, ![10000, 128]⟩
abbrev S1700000x128 : Shape := ⟨2, ![1700000, 128]⟩
abbrev S10000x1 : Shape := ⟨2, ![10000, 1]⟩
abbrev S64x128 : Shape := ⟨2, ![64, 128]⟩
abbrev S100000x1 : Shape := ⟨2, ![100000, 1]⟩
abbrev S64 : Shape := ⟨1, ![64]⟩
abbrev S64x1 : Shape := ⟨2, ![64, 1]⟩
abbrev S1x2 : Shape := ⟨2, ![1, 2]⟩
abbrev S64x2 : Shape := ⟨2, ![64, 2]⟩

abbrev nBuf : Space → Nat
  | .hbm => 109
  | .vmem => 38
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x2, .f32⟩
  | .hbm, ⟨8, _⟩ => ⟨S2, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S100000, .i32⟩
  | .hbm, ⟨14, _⟩ => ⟨S1700000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S_, .f32⟩
  | .hbm, ⟨50, _⟩ => ⟨S128, .f32⟩
  | .hbm, ⟨51, _⟩ => ⟨S1x128, .f32⟩
  | .hbm, ⟨52, _⟩ => ⟨S100000x128, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x128, .f32⟩
  | .hbm, ⟨62, _⟩ => ⟨S1700000x1, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S_, .f32⟩
  | .hbm, ⟨71, _⟩ => ⟨S128, .f32⟩
  | .hbm, ⟨72, _⟩ => ⟨S1x128, .f32⟩
  | .hbm, ⟨73, _⟩ => ⟨S100000x128, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x128, .f32⟩
  | .hbm, ⟨83, _⟩ => ⟨S1700000x1, .f32⟩
  | .hbm, ⟨84, _⟩ => ⟨S1700000x128, .f32⟩
  | .hbm, ⟨85, _⟩ => ⟨S_, .f32⟩
  | .hbm, ⟨86, _⟩ => ⟨S100000x128, .f32⟩
  | .hbm, ⟨87, _⟩ => ⟨S1700000x1, .i32⟩
  | .hbm, ⟨88, _⟩ => ⟨S100000x128, .f32⟩
  | .hbm, ⟨89, _⟩ => ⟨S1x128, .f32⟩
  | .hbm, ⟨90, _⟩ => ⟨S100000x128, .f32⟩
  | .hbm, ⟨91, _⟩ => ⟨S_, .f32⟩
  | .hbm, ⟨92, _⟩ => ⟨S64x128, .f32⟩
  | .hbm, ⟨93, _⟩ => ⟨S100000x1, .i32⟩
  | .hbm, ⟨94, _⟩ => ⟨S64x128, .f32⟩
  | .hbm, ⟨95, _⟩ => ⟨S_, .f32⟩
  | .hbm, ⟨96, _⟩ => ⟨S100000, .f32⟩
  | .hbm, ⟨97, _⟩ => ⟨S_, .f32⟩
  | .hbm, ⟨98, _⟩ => ⟨S64, .f32⟩
  | .hbm, ⟨99, _⟩ => ⟨S100000x1, .i32⟩
  | .hbm, ⟨100, _⟩ => ⟨S64, .f32⟩
  | .hbm, ⟨101, _⟩ => ⟨S_, .f32⟩
  | .hbm, ⟨102, _⟩ => ⟨S64, .f32⟩
  | .hbm, ⟨103, _⟩ => ⟨S64, .f32⟩
  | .hbm, ⟨104, _⟩ => ⟨S64x1, .f32⟩
  | .hbm, ⟨105, _⟩ => ⟨S64x128, .f32⟩
  | .hbm, ⟨106, _⟩ => ⟨S64x128, .f32⟩
  | .hbm, ⟨107, _⟩ => ⟨S1x2, .f32⟩
  | .hbm, ⟨108, _⟩ => ⟨S64x2, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x1, .f32⟩
  | .local _ .vmem, ⟨9, _⟩ => ⟨S10000x1, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S1x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S128x128, .f32⟩
  | .local _ .vmem, ⟨20, _⟩ => ⟨S1x128, .f32⟩
  | .local _ .vmem, ⟨21, _⟩ => ⟨S10000x128, .f32⟩
  | .local _ .vmem, ⟨22, _⟩ => ⟨S10000x128, .f32⟩
  | .local _ .vmem, ⟨23, _⟩ => ⟨S10000x128, .f32⟩
  | .local _ .vmem, ⟨24, _⟩ => ⟨S10000x128, .f32⟩
  | .local _ .vmem, ⟨25, _⟩ => ⟨S10000x1, .f32⟩
  | .local _ .vmem, ⟨26, _⟩ => ⟨S10000x1, .f32⟩
  | .local _ .vmem, ⟨27, _⟩ => ⟨S10000x128, .f32⟩
  | .local _ .vmem, ⟨28, _⟩ => ⟨S10000x128, .f32⟩
  | .local _ .vmem, ⟨29, _⟩ => ⟨S10000x128, .f32⟩
  | .local _ .vmem, ⟨30, _⟩ => ⟨S10000x128, .f32⟩
  | .local _ .vmem, ⟨31, _⟩ => ⟨S1x128, .f32⟩
  | .local _ .vmem, ⟨32, _⟩ => ⟨S10000x128, .f32⟩
  | .local _ .vmem, ⟨33, _⟩ => ⟨S10000x128, .f32⟩
  | .local _ .vmem, ⟨34, _⟩ => ⟨S64x128, .f32⟩
  | .local _ .vmem, ⟨35, _⟩ => ⟨S128x2, .f32⟩
  | .local _ .vmem, ⟨36, _⟩ => ⟨S1x2, .f32⟩
  | .local _ .vmem, ⟨37, _⟩ => ⟨S64x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_9 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_c_11 : Ref sig .tc := ⟨.hbm, 74, rfl⟩
abbrev main_v50 : Ref sig .tc := ⟨.hbm, 75, rfl⟩
abbrev main_v51 : Ref sig .tc := ⟨.hbm, 76, rfl⟩
abbrev main_c_12 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_13 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_14 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_15 : Ref sig .tc := ⟨.hbm, 95, rfl⟩
abbrev main_v67 : Ref sig .tc := ⟨.hbm, 96, rfl⟩
abbrev main_cst_16 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_17 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg2_1 : Ref sig .tc := ⟨.vmem, 33, rfl⟩
abbrev cc6_stg0_0 : Ref sig .tc := ⟨.vmem, 34, rfl⟩
abbrev cc6_stg1_0 : Ref sig .tc := ⟨.vmem, 35, rfl⟩
abbrev cc6_stg2_0 : Ref sig .tc := ⟨.vmem, 36, rfl⟩
abbrev cc6_stg3_0 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem1_1 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem2_1 : DmaSem sig := 33
abbrev cc6_sem0_0 : DmaSem sig := 34
abbrev cc6_sem1_0 : DmaSem sig := 35
abbrev cc6_sem2_0 : DmaSem sig := 36
abbrev cc6_sem3_0 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![170], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![170], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S64x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S128x2 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x2 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x2 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S128 : S_.BroadcastsInDim S128 (![] : Fin 0 → Fin S128.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S1700000_S1700000x1 : S1700000.ShapeCasts S1700000x1
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S100000x128 : S_.BroadcastsInDim S100000x128 (![] : Fin 0 → Fin S100000x128.rank)
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  shapeCasts_S2_S1x2 : S2.ShapeCasts S1x2
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S64x2 : S1x2.Broadcasts S64x2
  inb_S64x2_S64x2_0_0 : ∀ a, (![0, 0] : Fin 2 → Nat) a + S64x2.size a ≤ S64x2.size a
  h_S64x2 : 0 < S64x2.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x2_S64x2_1_0_0_1_n_n_wf : DotDims.WF S64x128 S128x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S1700000x128.size a
  hwx1_0 : ∀ i : grid1.Coords, EltTy.bits .f32 = 32 ∨ (Rect.block (s := S1700000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S1700000x1.size a
  hwx1_1 : ∀ i : grid1.Coords, EltTy.bits .f32 = 32 ∨ (Rect.block (s := S1700000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S1700000x128.size a
  hwx1_2 : ∀ i : grid1.Coords, EltTy.bits .f32 = 32 ∨ (Rect.block (s := S1700000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x128.size a ≤ S100000x128.size a
  hwx3_3 : ∀ i : grid3.Coords, EltTy.bits .f32 = 32 ∨ (Rect.block (s := S100000x128) S10000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S1700000x128.size a
  hwx4_0 : ∀ i : grid4.Coords, EltTy.bits .f32 = 32 ∨ (Rect.block (s := S1700000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S1700000x1.size a
  hwx4_1 : ∀ i : grid4.Coords, EltTy.bits .f32 = 32 ∨ (Rect.block (s := S1700000x1) S10000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S1700000x128.size a
  hwx4_2 : ∀ i : grid4.Coords, EltTy.bits .f32 = 32 ∨ (Rect.block (s := S1700000x128) S10000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x128.size a ≤ S100000x128.size a
  hwx5_2 : ∀ i : grid5.Coords, EltTy.bits .f32 = 32 ∨ (Rect.block (s := S100000x128) S10000x128.size (cc5_transform_2 i) (hinb5_2 i)).WholeWords (EltTy.packing .f32)
  hrank6 : 0 < grid6.rank
  hstage6_0 : ∀ j, (stage6_0 j).IsWhole
  nbuf6_0 : grid6.bufCount reads6_0 false = 1
  hreads6_0 : ∀ i i' : grid6.Coords, (∀ a, reads6_0 a = true → i a = i' a) → cc6_transform_0 i = cc6_transform_0 i'
  hinb6_0 : ∀ (i : grid6.Coords) a, (cc6_transform_0 i a + 1) * S64x128.size a ≤ S64x128.size a
  hwx6_0 : ∀ i : grid6.Coords, EltTy.bits .f32 = 32 ∨ (Rect.block (s := S64x128) S64x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x2.size a ≤ S128x2.size a
  hwx6_1 : ∀ i : grid6.Coords, EltTy.bits .f32 = 32 ∨ (Rect.block (s := S128x2) S128x2.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x2.size a ≤ S1x2.size a
  hwx6_2 : ∀ i : grid6.Coords, EltTy.bits .f32 = 32 ∨ (Rect.block (s := S1x2) S1x2.size (cc6_transform_2 i) (hinb6_2 i)).WholeWords (EltTy.packing .f32)
  hstage6_3 : ∀ j, (stage6_3 j).IsWhole
  nbuf6_3 : grid6.bufCount reads6_3 false = 1
  hreads6_3 : ∀ i i' : grid6.Coords, (∀ a, reads6_3 a = true → i a = i' a) → cc6_transform_3 i = cc6_transform_3 i'
  hinb6_3 : ∀ (i : grid6.Coords) a, (cc6_transform_3 i a + 1) * S64x2.size a ≤ S64x2.size a
  hwx6_3 : ∀ i : grid6.Coords, EltTy.bits .f32 = 32 ∨ (Rect.block (s := S64x2) S64x2.size (cc6_transform_3 i) (hinb6_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v39) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v46) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v48) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v49) S10000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v56) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v57) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v58) S10000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v61) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v62) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v63) S10000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v75) S64x128.size cc6_transform_0 reads6_0 false false 1 stage6_0 sem6_0
    hrank6 hreads6_0 hinb6_0 nbuf6_0 (Memref.isWhole_whole _) hwx6_0 hstage6_0

abbrev win6_1 : Pipeline.Window sig grid6 :=
  Pipeline.Window.ofSpec (Memref.whole main_arg7) S128x2.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v76) S1x2.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v77) S64x2.size cc6_transform_3 reads6_3 true false 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S64x128 : Shape := ⟨2, ![64, 128]⟩
abbrev S100000x1 : Shape := ⟨2, ![100000, 1]⟩
abbrev S64 : Shape := ⟨1, ![64]⟩
abbrev S64x1 : Shape := ⟨2, ![64, 1]⟩
abbrev S64x2 : Shape := ⟨2, ![64, 2]⟩
abbrev S1x2 : Shape := ⟨2, ![1, 2]⟩

abbrev nBuf : Space → Nat
  | .hbm => 151
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x2, .f32⟩
  | 8 => ⟨S2, .f32⟩
  | 9 => ⟨S1x1600000, .i32⟩
  | 10 => ⟨S1600000, .i32⟩
  | 11 => ⟨S1x1600000, .i32⟩
  | 12 => ⟨S1600000, .i32⟩
  | 13 => ⟨S100000, .i32⟩
  | 14 => ⟨S1700000, .i32⟩
  | 15 => ⟨S1700000, .i32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S100000x128, .f32⟩
  | 50 => ⟨S1700000x1, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x128, .f32⟩
  | 60 => ⟨S1700000x128, .f32⟩
  | 61 => ⟨S1700000x128, .f32⟩
  | 62 => ⟨S_, .f32⟩
  | 63 => ⟨S100000x128, .f32⟩
  | 64 => ⟨S1700000x1, .i32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S100000, .i32⟩
  | 73 => ⟨S1700000, .i32⟩
  | 74 => ⟨S1700000, .i32⟩
  | 75 => ⟨S_, .f32⟩
  | 76 => ⟨S1700000, .f32⟩
  | 77 => ⟨S_, .f32⟩
  | 78 => ⟨S100000, .f32⟩
  | 79 => ⟨S1700000x1, .i32⟩
  | 80 => ⟨S100000, .f32⟩
  | 81 => ⟨S_, .f32⟩
  | 82 => ⟨S100000, .f32⟩
  | 83 => ⟨S100000, .i1⟩
  | 84 => ⟨S100000, .f32⟩
  | 85 => ⟨S_, .f32⟩
  | 86 => ⟨S_, .f32⟩
  | 87 => ⟨S100000, .f32⟩
  | 88 => ⟨S100000, .f32⟩
  | 89 => ⟨S_, .i32⟩
  | 90 => ⟨S1700000, .i32⟩
  | 91 => ⟨S1700000, .i1⟩
  | 92 => ⟨S_, .i32⟩
  | 93 => ⟨S1700000, .i32⟩
  | 94 => ⟨S1700000, .i32⟩
  | 95 => ⟨S1700000, .i32⟩
  | 96 => ⟨S1700000x1, .i32⟩
  | 97 => ⟨S1700000, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000, .f32⟩
  | 107 => ⟨S1700000, .f32⟩
  | 108 => ⟨S100000x128, .f32⟩
  | 109 => ⟨S1700000x1, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x128, .f32⟩
  | 119 => ⟨S1700000x128, .f32⟩
  | 120 => ⟨S1700000x128, .f32⟩
  | 121 => ⟨S_, .f32⟩
  | 122 => ⟨S100000x128, .f32⟩
  | 123 => ⟨S1700000x1, .i32⟩
  | 124 => ⟨S100000x128, .f32⟩
  | 125 => ⟨S1x128, .f32⟩
  | 126 => ⟨S100000x128, .f32⟩
  | 127 => ⟨S100000x128, .f32⟩
  | _ => ⟨S100000x128, .f32⟩

abbrev hbmTy0_1 (i : Nat) : BufTy := match i % 128 with
  | 0 => ⟨S_, .f32⟩
  | 1 => ⟨S100000x128, .f32⟩
  | 2 => ⟨S100000x128, .f32⟩
  | 3 => ⟨S_, .f32⟩
  | 4 => ⟨S64x128, .f32⟩
  | 5 => ⟨S100000x1, .i32⟩
  | 6 => ⟨S64x128, .f32⟩
  | 7 => ⟨S_, .f32⟩
  | 8 => ⟨S100000, .f32⟩
  | 9 => ⟨S_, .f32⟩
  | 10 => ⟨S64, .f32⟩
  | 11 => ⟨S100000x1, .i32⟩
  | 12 => ⟨S64, .f32⟩
  | 13 => ⟨S_, .f32⟩
  | 14 => ⟨S64, .f32⟩
  | 15 => ⟨S64, .f32⟩
  | 16 => ⟨S64x1, .f32⟩
  | 17 => ⟨S64x128, .f32⟩
  | 18 => ⟨S64x128, .f32⟩
  | 19 => ⟨S64x2, .f32⟩
  | 20 => ⟨S1x2, .f32⟩
  | 21 => ⟨S64x2, .f32⟩
  | 22 => ⟨S64x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_9 : Ref sig .tc := ⟨.hbm, 75, rfl⟩
abbrev main_v51 : Ref sig .tc := ⟨.hbm, 76, rfl⟩
abbrev main_cst_10 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_11 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_12 : Ref sig .tc := ⟨.hbm, 85, rfl⟩
abbrev main_call2_v0 : Ref sig .tc := ⟨.hbm, 86, rfl⟩
abbrev main_call2_v1 : Ref sig .tc := ⟨.hbm, 87, rfl⟩
abbrev main_v58 : Ref sig .tc := ⟨.hbm, 88, rfl⟩
abbrev main_c_13 : Ref sig .tc := ⟨.hbm, 89, rfl⟩
abbrev main_v59 : Ref sig .tc := ⟨.hbm, 90, rfl⟩
abbrev main_v60 : Ref sig .tc := ⟨.hbm, 91, rfl⟩
abbrev main_c_14 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_c_15 : Ref sig .tc := ⟨.hbm, 98, rfl⟩
abbrev main_v66 : Ref sig .tc := ⟨.hbm, 99, rfl⟩
abbrev main_v67 : Ref sig .tc := ⟨.hbm, 100, rfl⟩
abbrev main_c_16 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_c_17 : Ref sig .tc := ⟨.hbm, 110, rfl⟩
abbrev main_v76 : Ref sig .tc := ⟨.hbm, 111, rfl⟩
abbrev main_v77 : Ref sig .tc := ⟨.hbm, 112, rfl⟩
abbrev main_c_18 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_19 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_call3_cst : Ref sig .tc := ⟨.hbm, 128, rfl⟩
abbrev main_call3_v0 : Ref sig .tc := ⟨.hbm, 129, rfl⟩
abbrev main_v91 : Ref sig .tc := ⟨.hbm, 130, rfl⟩
abbrev main_cst_20 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_21 : Ref sig .tc := ⟨.hbm, 135, rfl⟩
abbrev main_v95 : Ref sig .tc := ⟨.hbm, 136, rfl⟩
abbrev main_cst_22 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_23 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x2_S64x2_1_0_0_1_n_n_wf : DotDims.WF S64x128 S128x2 S64x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

class Facts : Prop extends Facts₀ where

variable [Facts]
-- ==== Proof.KernelRun.lean ====
/-
  The idealized kernel's run with its result NAMED.

  @main is sixteen segments: nine stretches of host operations and seven pallas regions. The buffer contents at
  the segment boundaries are a fold `W0 … W16` from the launch memory: a host stretch applies its operations, a
  region replaces its output array by what its grid's write-backs leave and keeps every other buffer. Every weakly
  fair execution terminates with every unscoped buffer at the last boundary's contents `W16`; read at the result
  buffer this names the result, and read at the nine arguments it gives them back as launched.
-/
import proofs.«175690_j21294447853629_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel terminates, nothing faulting, with the result buffer at the
    last boundary's contents and the nine arguments as launched. -/
theorem run_named : θ_run defs (onTc (τ := τ) (main (F := F))) ⟨m, fun _ => 0, ρ⟩ (fun r => ∀ c : Dev nD,
      r.2.mem ((c.tc : Thread nD τ).loc main_v77) = W16 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v77 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c)⟩)

end Cert.KernelIdeal.Hand

end
-- ==== Proof.Keep.lean ====
/-
  Buffers that cross segments untouched.

  A host stretch changes only the buffers its operations write, and a region changes only its output array. So an
  argument, the two edge-endpoint index vectors, the edge weights and the first layer's output keep their contents
  from the boundary where they were last written to the boundary where they are next read.
-/
import proofs.«175690_j21294447853629_1_alg».proof.Proof.Gen.KernelIdeal.Frame

set_option maxRecDepth 16384

noncomputable section

namespace Cert.KernelIdeal.Hand

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- A buffer none of a stretch's operations writes holds after the stretch what it held before. -/
macro "host_keep" : tactic => `(tactic|
  exact StableHlo.after_of_forall_not_mem _ _ (List.forall_iff_forall_mem.mp (by
    simp only [hostOps0, hostOps0_1, hostOps0_2, hostOps1, hostOps2, hostOps3, hostOps4, hostOps5, hostOps6,
      List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

theorem keep_arg0_0_3 (c : Dev nD) :
    W3 m ρ c (Proc.devRef .tc main_arg0) = W0 m ρ c (Proc.devRef .tc main_arg0) :=
  (show W3 m ρ c (Proc.devRef .tc main_arg0) = W2 m ρ c (Proc.devRef .tc main_arg0) by host_keep).trans
    ((show W2 m ρ c (Proc.devRef .tc main_arg0) = W1 m ρ c (Proc.devRef .tc main_arg0) by host_keep).trans
    ((show W1 m ρ c (Proc.devRef .tc main_arg0) = W0 m ρ c (Proc.devRef .tc main_arg0) by host_keep)))

theorem keep_arg3_0_3 (c : Dev nD) :
    W3 m ρ c (Proc.devRef .tc main_arg3) = W0 m ρ c (Proc.devRef .tc main_arg3) :=
  (show W3 m ρ c (Proc.devRef .tc main_arg3) = W2 m ρ c (Proc.devRef .tc main_arg3) by host_keep).trans
    ((show W2 m ρ c (Proc.devRef .tc main_arg3) = W1 m ρ c (Proc.devRef .tc main_arg3) by host_keep).trans
    ((show W1 m ρ c (Proc.devRef .tc main_arg3) = W0 m ρ c (Proc.devRef .tc main_arg3) by host_keep)))

theorem keep_arg4_0_6 (c : Dev nD) :
    W6 m ρ c (Proc.devRef .tc main_arg4) = W0 m ρ c (Proc.devRef .tc main_arg4) :=
  (W6_of_ne m ρ c main_arg4 (by decide)).trans
    ((show W5 m ρ c (Proc.devRef .tc main_arg4) = W4 m ρ c (Proc.devRef .tc main_arg4) by host_keep).trans
    ((W4_of_ne m ρ c main_arg4 (by decide)).trans
    ((show W3 m ρ c (Proc.devRef .tc main_arg4) = W2 m ρ c (Proc.devRef .tc main_arg4) by host_keep).trans
    ((show W2 m ρ c (Proc.devRef .tc main_arg4) = W1 m ρ c (Proc.devRef .tc main_arg4) by host_keep).trans
    ((show W1 m ρ c (Proc.devRef .tc main_arg4) = W0 m ρ c (Proc.devRef .tc main_arg4) by host_keep))))))

theorem keep_arg5_0_9 (c : Dev nD) :
    W9 m ρ c (Proc.devRef .tc main_arg5) = W0 m ρ c (Proc.devRef .tc main_arg5) :=
  (show W9 m ρ c (Proc.devRef .tc main_arg5) = W8 m ρ c (Proc.devRef .tc main_arg5) by host_keep).trans
    ((W8_of_ne m ρ c main_arg5 (by decide)).trans
    ((show W7 m ρ c (Proc.devRef .tc main_arg5) = W6 m ρ c (Proc.devRef .tc main_arg5) by host_keep).trans
    ((W6_of_ne m ρ c main_arg5 (by decide)).trans
    ((show W5 m ρ c (Proc.devRef .tc main_arg5) = W4 m ρ c (Proc.devRef .tc main_arg5) by host_keep).trans
    ((W4_of_ne m ρ c main_arg5 (by decide)).trans
    ((show W3 m ρ c (Proc.devRef .tc main_arg5) = W2 m ρ c (Proc.devRef .tc main_arg5) by host_keep).trans
    ((show W2 m ρ c (Proc.devRef .tc main_arg5) = W1 m ρ c (Proc.devRef .tc main_arg5) by host_keep).trans
    ((show W1 m ρ c (Proc.devRef .tc main_arg5) = W0 m ρ c (Proc.devRef .tc main_arg5) by host_keep)))))))))

theorem keep_arg6_0_12 (c : Dev nD) :
    W12 m ρ c (Proc.devRef .tc main_arg6) = W0 m ρ c (Proc.devRef .tc main_arg6) :=
  (W12_of_ne m ρ c main_arg6 (by decide)).trans
    ((show W11 m ρ c (Proc.devRef .tc main_arg6) = W10 m ρ c (Proc.devRef .tc main_arg6) by host_keep).trans
    ((W10_of_ne m ρ c main_arg6 (by decide)).trans
    ((show W9 m ρ c (Proc.devRef .tc main_arg6) = W8 m ρ c (Proc.devRef .tc main_arg6) by host_keep).trans
    ((W8_of_ne m ρ c main_arg6 (by decide)).trans
    ((show W7 m ρ c (Proc.devRef .tc main_arg6) = W6 m ρ c (Proc.devRef .tc main_arg6) by host_keep).trans
    ((W6_of_ne m ρ c main_arg6 (by decide)).trans
    ((show W5 m ρ c (Proc.devRef .tc main_arg6) = W4 m ρ c (Proc.devRef .tc main_arg6) by host_keep).trans
    ((W4_of_ne m ρ c main_arg6 (by decide)).trans
    ((show W3 m ρ c (Proc.devRef .tc main_arg6) = W2 m ρ c (Proc.devRef .tc main_arg6) by host_keep).trans
    ((show W2 m ρ c (Proc.devRef .tc main_arg6) = W1 m ρ c (Proc.devRef .tc main_arg6) by host_keep).trans
    ((show W1 m ρ c (Proc.devRef .tc main_arg6) = W0 m ρ c (Proc.devRef .tc main_arg6) by host_keep))))))))))))

theorem keep_arg2_0_14 (c : Dev nD) :
    W14 m ρ c (Proc.devRef .tc main_arg2) = W0 m ρ c (Proc.devRef .tc main_arg2) :=
  (W14_of_ne m ρ c main_arg2 (by decide)).trans
    ((show W13 m ρ c (Proc.devRef .tc main_arg2) = W12 m ρ c (Proc.devRef .tc main_arg2) by host_keep).trans
    ((W12_of_ne m ρ c main_arg2 (by decide)).trans
    ((show W11 m ρ c (Proc.devRef .tc main_arg2) = W10 m ρ c (Proc.devRef .tc main_arg2) by host_keep).trans
    ((W10_of_ne m ρ c main_arg2 (by decide)).trans
    ((show W9 m ρ c (Proc.devRef .tc main_arg2) = W8 m ρ c (Proc.devRef .tc main_arg2) by host_keep).trans
    ((W8_of_ne m ρ c main_arg2 (by decide)).trans
    ((show W7 m ρ c (Proc.devRef .tc main_arg2) = W6 m ρ c (Proc.devRef .tc main_arg2) by host_keep).trans
    ((W6_of_ne m ρ c main_arg2 (by decide)).trans
    ((show W5 m ρ c (Proc.devRef .tc main_arg2) = W4 m ρ c (Proc.devRef .tc main_arg2) by host_keep).trans
    ((W4_of_ne m ρ c main_arg2 (by decide)).trans
    ((show W3 m ρ c (Proc.devRef .tc main_arg2) = W2 m ρ c (Proc.devRef .tc main_arg2) by host_keep).trans
    ((show W2 m ρ c (Proc.devRef .tc main_arg2) = W1 m ρ c (Proc.devRef .tc main_arg2) by host_keep).trans
    ((show W1 m ρ c (Proc.devRef .tc main_arg2) = W0 m ρ c (Proc.devRef .tc main_arg2) by host_keep))))))))))))))

theorem keep_arg8_0_14 (c : Dev nD) :
    W14 m ρ c (Proc.devRef .tc main_arg8) = W0 m ρ c (Proc.devRef .tc main_arg8) :=
  (W14_of_ne m ρ c main_arg8 (by decide)).trans
    ((show W13 m ρ c (Proc.devRef .tc main_arg8) = W12 m ρ c (Proc.devRef .tc main_arg8) by host_keep).trans
    ((W12_of_ne m ρ c main_arg8 (by decide)).trans
    ((show W11 m ρ c (Proc.devRef .tc main_arg8) = W10 m ρ c (Proc.devRef .tc main_arg8) by host_keep).trans
    ((W10_of_ne m ρ c main_arg8 (by decide)).trans
    ((show W9 m ρ c (Proc.devRef .tc main_arg8) = W8 m ρ c (Proc.devRef .tc main_arg8) by host_keep).trans
    ((W8_of_ne m ρ c main_arg8 (by decide)).trans
    ((show W7 m ρ c (Proc.devRef .tc main_arg8) = W6 m ρ c (Proc.devRef .tc main_arg8) by host_keep).trans
    ((W6_of_ne m ρ c main_arg8 (by decide)).trans
    ((show W5 m ρ c (Proc.devRef .tc main_arg8) = W4 m ρ c (Proc.devRef .tc main_arg8) by host_keep).trans
    ((W4_of_ne m ρ c main_arg8 (by decide)).trans
    ((show W3 m ρ c (Proc.devRef .tc main_arg8) = W2 m ρ c (Proc.devRef .tc main_arg8) by host_keep).trans
    ((show W2 m ρ c (Proc.devRef .tc main_arg8) = W1 m ρ c (Proc.devRef .tc main_arg8) by host_keep).trans
    ((show W1 m ρ c (Proc.devRef .tc main_arg8) = W0 m ρ c (Proc.devRef .tc main_arg8) by host_keep))))))))))))))

theorem keep_arg7_0_15 (c : Dev nD) :
    W15 m ρ c (Proc.devRef .tc main_arg7) = W0 m ρ c (Proc.devRef .tc main_arg7) :=
  (show W15 m ρ c (Proc.devRef .tc main_arg7) = W14 m ρ c (Proc.devRef .tc main_arg7) by host_keep).trans
    ((W14_of_ne m ρ c main_arg7 (by decide)).trans
    ((show W13 m ρ c (Proc.devRef .tc main_arg7) = W12 m ρ c (Proc.devRef .tc main_arg7) by host_keep).trans
    ((W12_of_ne m ρ c main_arg7 (by decide)).trans
    ((show W11 m ρ c (Proc.devRef .tc main_arg7) = W10 m ρ c (Proc.devRef .tc main_arg7) by host_keep).trans
    ((W10_of_ne m ρ c main_arg7 (by decide)).trans
    ((show W9 m ρ c (Proc.devRef .tc main_arg7) = W8 m ρ c (Proc.devRef .tc main_arg7) by host_keep).trans
    ((W8_of_ne m ρ c main_arg7 (by decide)).trans
    ((show W7 m ρ c (Proc.devRef .tc main_arg7) = W6 m ρ c (Proc.devRef .tc main_arg7) by host_keep).trans
    ((W6_of_ne m ρ c main_arg7 (by decide)).trans
    ((show W5 m ρ c (Proc.devRef .tc main_arg7) = W4 m ρ c (Proc.devRef .tc main_arg7) by host_keep).trans
    ((W4_of_ne m ρ c main_arg7 (by decide)).trans
    ((show W3 m ρ c (Proc.devRef .tc main_arg7) = W2 m ρ c (Proc.devRef .tc main_arg7) by host_keep).trans
    ((show W2 m ρ c (Proc.devRef .tc main_arg7) = W1 m ρ c (Proc.devRef .tc main_arg7) by host_keep).trans
    ((show W1 m ρ c (Proc.devRef .tc main_arg7) = W0 m ρ c (Proc.devRef .tc main_arg7) by host_keep)))))))))))))))

theorem keep_v5_3_4 (c : Dev nD) :
    W4 m ρ c (Proc.devRef .tc main_v5) = W3 m ρ c (Proc.devRef .tc main_v5) :=
  (W4_of_ne m ρ c main_v5 (by decide))

theorem keep_v5_3_10 (c : Dev nD) :
    W10 m ρ c (Proc.devRef .tc main_v5) = W3 m ρ c (Proc.devRef .tc main_v5) :=
  (W10_of_ne m ρ c main_v5 (by decide)).trans
    ((show W9 m ρ c (Proc.devRef .tc main_v5) = W8 m ρ c (Proc.devRef .tc main_v5) by host_keep).trans
    ((W8_of_ne m ρ c main_v5 (by decide)).trans
    ((show W7 m ρ c (Proc.devRef .tc main_v5) = W6 m ρ c (Proc.devRef .tc main_v5) by host_keep).trans
    ((W6_of_ne m ρ c main_v5 (by decide)).trans
    ((show W5 m ρ c (Proc.devRef .tc main_v5) = W4 m ρ c (Proc.devRef .tc main_v5) by host_keep).trans
    ((W4_of_ne m ρ c main_v5 (by decide))))))))

theorem keep_v6_3_6 (c : Dev nD) :
    W6 m ρ c (Proc.devRef .tc main_v6) = W3 m ρ c (Proc.devRef .tc main_v6) :=
  (W6_of_ne m ρ c main_v6 (by decide)).trans
    ((show W5 m ρ c (Proc.devRef .tc main_v6) = W4 m ρ c (Proc.devRef .tc main_v6) by host_keep).trans
    ((W4_of_ne m ρ c main_v6 (by decide))))

theorem keep_v6_3_12 (c : Dev nD) :
    W12 m ρ c (Proc.devRef .tc main_v6) = W3 m ρ c (Proc.devRef .tc main_v6) :=
  (W12_of_ne m ρ c main_v6 (by decide)).trans
    ((show W11 m ρ c (Proc.devRef .tc main_v6) = W10 m ρ c (Proc.devRef .tc main_v6) by host_keep).trans
    ((W10_of_ne m ρ c main_v6 (by decide)).trans
    ((show W9 m ρ c (Proc.devRef .tc main_v6) = W8 m ρ c (Proc.devRef .tc main_v6) by host_keep).trans
    ((W8_of_ne m ρ c main_v6 (by decide)).trans
    ((show W7 m ρ c (Proc.devRef .tc main_v6) = W6 m ρ c (Proc.devRef .tc main_v6) by host_keep).trans
    ((W6_of_ne m ρ c main_v6 (by decide)).trans
    ((show W5 m ρ c (Proc.devRef .tc main_v6) = W4 m ρ c (Proc.devRef .tc main_v6) by host_keep).trans
    ((W4_of_ne m ρ c main_v6 (by decide))))))))))

theorem keep_v29_3_4 (c : Dev nD) :
    W4 m ρ c (Proc.devRef .tc main_v29) = W3 m ρ c (Proc.devRef .tc main_v29) :=
  (W4_of_ne m ρ c main_v29 (by decide))

theorem keep_v29_3_10 (c : Dev nD) :
    W10 m ρ c (Proc.devRef .tc main_v29) = W3 m ρ c (Proc.devRef .tc main_v29) :=
  (W10_of_ne m ρ c main_v29 (by decide)).trans
    ((show W9 m ρ c (Proc.devRef .tc main_v29) = W8 m ρ c (Proc.devRef .tc main_v29) by host_keep).trans
    ((W8_of_ne m ρ c main_v29 (by decide)).trans
    ((show W7 m ρ c (Proc.devRef .tc main_v29) = W6 m ρ c (Proc.devRef .tc main_v29) by host_keep).trans
    ((W6_of_ne m ρ c main_v29 (by decide)).trans
    ((show W5 m ρ c (Proc.devRef .tc main_v29) = W4 m ρ c (Proc.devRef .tc main_v29) by host_keep).trans
    ((W4_of_ne m ρ c main_v29 (by decide))))))))

theorem keep_v46_8_9 (c : Dev nD) :
    W9 m ρ c (Proc.devRef .tc main_v46) = W8 m ρ c (Proc.devRef .tc main_v46) :=
  (show W9 m ρ c (Proc.devRef .tc main_v46) = W8 m ρ c (Proc.devRef .tc main_v46) by host_keep)

end Cert.KernelIdeal.Hand

end
-- ==== Proof.Host0.lean ====
/-
  What the host operations before the first region leave (boundary 3).

  From the edge list alone: the source and target index vectors with the self loops appended, and the symmetric
  edge weights dinv[r] · dinv[c] from the degree count. These are the reference's own first stages, operation for
  operation. And the zero bias row the first product region is given.

  The three stretches are read one at a time, each over arbitrary contents with its inputs named, so that every
  reading stays small: the degree mask, the reciprocal square root and the zero scalar after the first stretch;
  the selected dinv after the second (the outlined `where`); the product of the two gathers after the third.
-/
import proofs.«175690_j21294447853629_1_alg».proof.Proof.Keep
import proofs.«175690_j21294447853629_1_alg».proof.Proof.RefRead
import Idealize.ShloMosaic.Lib.StableHlo.Run
import Idealize.ShloMosaic.PureOps.Ideal

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The second and third stretches over arbitrary contents -/

/-- The outlined `where`: dinv is the reciprocal square root where the degree is positive, the zero scalar elsewhere. -/
theorem where_of (V : Valuation τ sig (Elt Ideal)) (p : IVec S100000 1) (r : FVec Ideal S100000 .f32) (z : FVec Ideal S_ .f32)
    (hp : V (Proc.devRef .tc main_v12) = p) (hr : V (Proc.devRef .tc main_v13) = r) (hz : V (Proc.devRef .tc main_cst_2) = z) :
    StableHlo.after hostOps0_1 V (Proc.devRef .tc main_v14) = select p r (broadcastInDim S100000 ![] bcast_S_S100000 (id z)) := by
  subst hp hr hz
  after_results <;> rfl

set_option maxHeartbeats 8000000 in
/-- The edge weights: dinv gathered at the sources times dinv gathered at the targets (a negative index wrapped). -/
theorem norm_of (V : Valuation τ sig (Elt Ideal)) (d : FVec Ideal S100000 .f32) (i5 i6 : IVec S1700000 32)
    (hd : V (Proc.devRef .tc main_v14) = d) (h5 : V (Proc.devRef .tc main_v5) = i5) (h6 : V (Proc.devRef .tc main_v6) = i6) :
    StableHlo.after hostOps0_2 V (Proc.devRef .tc main_v29) =
      mulf (F := Ideal)
        (Host.gather gather_S100000_S1700000x1_S1700000_n_0_n_n_0_1_1 d (broadcastInDim S1700000x1 ![0] bcast_S1700000_S1700000x1_0
          (select (cmpi .slt i5 (broadcastInDim S1700000 ![] bcast_S_S1700000 (constantI S_ 32 0#32)))
            (addi i5 (broadcastInDim S1700000 ![] bcast_S_S1700000 (constantI S_ 32 100000#32))) i5)))
        (Host.gather gather_S100000_S1700000x1_S1700000_n_0_n_n_0_1_1 d (broadcastInDim S1700000x1 ![0] bcast_S1700000_S1700000x1_0
          (select (cmpi .slt i6 (broadcastInDim S1700000 ![] bcast_S_S1700000 (constantI S_ 32 0#32)))
            (addi i6 (broadcastInDim S1700000 ![] bcast_S_S1700000 (constantI S_ 32 100000#32))) i6))) := by
  subst hd h5 h6
  after_results <;> rfl

/-! ## After the first stretch -/

theorem W1_v5 : W1 m ρ c (Proc.devRef .tc main_v5) = Cert.ReferenceIdeal.ReadP.val_main_v5 (F := Ideal) (m ((c.tc : Thread nD τ).loc main_arg1)) := by
  show StableHlo.after hostOps0 (W0 m ρ c) (Proc.devRef .tc main_v5) = _
  after_results <;> rfl
theorem W1_v6 : W1 m ρ c (Proc.devRef .tc main_v6) = Cert.ReferenceIdeal.ReadP.val_main_v6 (F := Ideal) (m ((c.tc : Thread nD τ).loc main_arg1)) := by
  show StableHlo.after hostOps0 (W0 m ρ c) (Proc.devRef .tc main_v6) = _
  after_results <;> rfl
set_option maxHeartbeats 4000000 in
theorem W1_v12 : W1 m ρ c (Proc.devRef .tc main_v12) = Cert.ReferenceIdeal.ReadP.val_main_v12 (F := Ideal) (m ((c.tc : Thread nD τ).loc main_arg1)) := by
  show StableHlo.after hostOps0 (W0 m ρ c) (Proc.devRef .tc main_v12) = _
  after_results <;> rfl
set_option maxHeartbeats 4000000 in
theorem W1_v13 : W1 m ρ c (Proc.devRef .tc main_v13) = Cert.ReferenceIdeal.ReadP.val_main_v13 (F := Ideal) (m ((c.tc : Thread nD τ).loc main_arg1)) := by
  show StableHlo.after hostOps0 (W0 m ρ c) (Proc.devRef .tc main_v13) = _
  after_results <;> rfl
theorem W1_cst2 : W1 m ρ c (Proc.devRef .tc main_cst_2) = Cert.ReferenceIdeal.ReadP.val_main_cst_2 (F := Ideal) := by
  show StableHlo.after hostOps0 (W0 m ρ c) (Proc.devRef .tc main_cst_2) = _
  after_results <;> rfl

/-! ## After the second stretch -/

theorem W2_v14 : W2 m ρ c (Proc.devRef .tc main_v14) = Cert.ReferenceIdeal.ReadP.val_main_v14 (F := Ideal) (m ((c.tc : Thread nD τ).loc main_arg1)) :=
  (where_of (W1 m ρ c) _ _ _ (W1_v12 m ρ c) (W1_v13 m ρ c) (W1_cst2 m ρ c)).trans rfl
theorem W2_v5 : W2 m ρ c (Proc.devRef .tc main_v5) = Cert.ReferenceIdeal.ReadP.val_main_v5 (F := Ideal) (m ((c.tc : Thread nD τ).loc main_arg1)) :=
  (show W2 m ρ c (Proc.devRef .tc main_v5) = W1 m ρ c (Proc.devRef .tc main_v5) by host_keep).trans (W1_v5 m ρ c)
theorem W2_v6 : W2 m ρ c (Proc.devRef .tc main_v6) = Cert.ReferenceIdeal.ReadP.val_main_v6 (F := Ideal) (m ((c.tc : Thread nD τ).loc main_arg1)) :=
  (show W2 m ρ c (Proc.devRef .tc main_v6) = W1 m ρ c (Proc.devRef .tc main_v6) by host_keep).trans (W1_v6 m ρ c)

/-! ## After the third stretch: boundary 3 -/

/-- The source indices (edge sources, then every node once). -/
theorem W3_v5 : W3 m ρ c (Proc.devRef .tc main_v5) = Cert.ReferenceIdeal.ReadP.val_main_v5 (F := Ideal) (m ((c.tc : Thread nD τ).loc main_arg1)) :=
  (show W3 m ρ c (Proc.devRef .tc main_v5) = W2 m ρ c (Proc.devRef .tc main_v5) by host_keep).trans (W2_v5 m ρ c)

/-- The target indices (edge targets, then every node once). -/
theorem W3_v6 : W3 m ρ c (Proc.devRef .tc main_v6) = Cert.ReferenceIdeal.ReadP.val_main_v6 (F := Ideal) (m ((c.tc : Thread nD τ).loc main_arg1)) :=
  (show W3 m ρ c (Proc.devRef .tc main_v6) = W2 m ρ c (Proc.devRef .tc main_v6) by host_keep).trans (W2_v6 m ρ c)

/-- The edge weights dinv[r] · dinv[c]. -/
theorem W3_v29 : W3 m ρ c (Proc.devRef .tc main_v29) = Cert.ReferenceIdeal.ReadP.val_main_v29 (F := Ideal) (m ((c.tc : Thread nD τ).loc main_arg1)) :=
  (norm_of (W2 m ρ c) _ _ _ (W2_v14 m ρ c) (W2_v5 m ρ c) (W2_v6 m ρ c)).trans rfl

/-- The zero bias row: a zero scalar broadcast to [128], cast to [1,128]. -/
theorem W3_v31 : W3 m ρ c (Proc.devRef .tc main_v31) = (shapeCast S1x128 (broadcastInDim S128 ![] bcast_S_S128 (constant (F := Ideal) S_ .f32 0x00000000#32)) shapeCasts_S128_S1x128) := by
  show StableHlo.after hostOps0_2 (StableHlo.after hostOps0_1 (StableHlo.after hostOps0 (W0 m ρ c))) (Proc.devRef .tc main_v31) = _
  after_results <;> rfl

end Cert.KernelIdeal.Hand

end
-- ==== Proof.PayMatmul.lean ====
/-
  The three matrix-product bodies read at an entry, at the ideal instance.

  Each body casts a block of rows and a weight matrix to bf16 (the identity on extended reals), multiplies them on
  the matrix unit into a zero accumulator, and adds a one-row bias broadcast down the rows. So the entry at
  (p, q) of what a point stores is the sum over k of block(p, k) · weight(k, q), plus bias(0, q).
-/
import proofs.«175690_j21294447853629_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.ShloMosaic.ValueIdx

/-! ## The [10000,128] × [128,128] product of the two hidden layers -/

theorem lhsB_0 (j : S10000x128.Idx) (q : dot_S10000x128_S128x128_S10000x128_1_0_0_1_n_n.contr.Idx) :
    (dot_S10000x128_S128x128_S10000x128_1_0_0_1_n_n.lhsIdx j q 0).val = (j 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhsB_1 (j : S10000x128.Idx) (q : dot_S10000x128_S128x128_S10000x128_1_0_0_1_n_n.contr.Idx) :
    (dot_S10000x128_S128x128_S10000x128_1_0_0_1_n_n.lhsIdx j q 1).val = (q ⟨0, by decide⟩).val :=
  dot_S10000x128_S128x128_S10000x128_1_0_0_1_n_n.lhsIdx_val_of_single rfl j q
theorem rhsB_0 (j : S10000x128.Idx) (q : dot_S10000x128_S128x128_S10000x128_1_0_0_1_n_n.contr.Idx) :
    (dot_S10000x128_S128x128_S10000x128_1_0_0_1_n_n.rhsIdx j q 0).val = (q ⟨0, by decide⟩).val :=
  dot_S10000x128_S128x128_S10000x128_1_0_0_1_n_n.rhsIdx_val_of_single rfl j q
theorem rhsB_1 (j : S10000x128.Idx) (q : dot_S10000x128_S128x128_S10000x128_1_0_0_1_n_n.contr.Idx) :
    (dot_S10000x128_S128x128_S10000x128_1_0_0_1_n_n.rhsIdx j q 1).val = (j 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Row `j 0` of the left factor at column `k`. -/
abbrev lhsAtB (j : S10000x128.Idx) (k : Fin 128) : S10000x128.Idx := fun a => match a with
  | ⟨0, _⟩ => ⟨(j 0).val, (j 0).isLt⟩
  | ⟨1, _⟩ => ⟨k.val, k.isLt⟩
/-- Row `k` of the right factor at column `j 1`. -/
abbrev rhsAtB (j : S10000x128.Idx) (k : Fin 128) : S128x128.Idx := fun a => match a with
  | ⟨0, _⟩ => ⟨k.val, k.isLt⟩
  | ⟨1, _⟩ => ⟨(j 1).val, (j 1).isLt⟩

/-- The matrix unit's product into a zero accumulator, read at an entry, is the row-by-column sum over the 128
    contracted positions. -/
theorem matmulB_apply {φ₁ φ₂ : FTy} (x : FVec Ideal S10000x128 φ₁) (w : FVec Ideal S128x128 φ₂) (j : S10000x128.Idx) :
    matmul dot_S10000x128_S128x128_S10000x128_1_0_0_1_n_n none x w (constant (F := Ideal) S10000x128 .f32 0x00000000#32) j
      = ∑ k : Fin 128, x (lhsAtB j k) * w (rhsAtB j k) := by
  refine (Ideal.matmul_constant_zero_apply dot_S10000x128_S128x128_S10000x128_1_0_0_1_n_n none x w j).trans ?_
  rw [← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx j ((ValueIdx.contrEquiv1 dot_S10000x128_S128x128_S10000x128_1_0_0_1_n_n 128 rfl rfl).symm k) = lhsAtB j k := funext fun a => Fin.ext (by
    match a with
    | ⟨0, _⟩ => exact lhsB_0 _ _
    | ⟨1, _⟩ => exact (lhsB_1 _ _).trans hk)
  have er : dot_S10000x128_S128x128_S10000x128_1_0_0_1_n_n.rhsIdx j ((ValueIdx.contrEquiv1 dot_S10000x128_S128x128_S10000x128_1_0_0_1_n_n 128 rfl rfl).symm k) = rhsAtB j k := funext fun a => Fin.ext (by
    match a with
    | ⟨0, _⟩ => exact (rhsB_0 _ _).trans hk
    | ⟨1, _⟩ => exact rhsB_1 _ _)
  rw [el, er]

/-- The one bias row at column `j 1`. -/
abbrev biasAtB (j : S10000x128.Idx) : S1x128.Idx := fun a => match a with
  | ⟨0, _⟩ => (0 : Fin 1)
  | ⟨1, _⟩ => ⟨(j 1).val, (j 1).isLt⟩

/-- A [1,128] row broadcast down 10000 rows, read at an entry, is the row at that column. -/
theorem rowBcastB_apply {α : Type} (v : S1x128.Idx → α) (h : S1x128.Broadcasts S10000x128) (j : S10000x128.Idx) :
    broadcastTo S10000x128 v h j = v (biasAtB j) :=
  broadcastTo_apply v h j (biasAtB j) fun ax => by
    match ax with
    | ⟨0, _⟩ => rfl
    | ⟨1, _⟩ => rfl

/-- The first layer's product body at an entry. -/
theorem pay0_apply (x0 : Vec Ideal S10000x128 .f32) (x1 : Vec Ideal S128x128 .f32) (x2 : Vec Ideal S1x128 .f32) (j : S10000x128.Idx) :
    k0_pay1 (F := Ideal) x0 x1 x2 j = (∑ k : Fin 128, x0 (lhsAtB j k) * x1 (rhsAtB j k)) + x2 (biasAtB j) := by
  unfold k0_pay1
  rw [addf_apply, matmulB_apply, shapeCast_self, rowBcastB_apply]
  rfl

/-- The second layer's product body at an entry (its block of rows first passes an identity cast). -/
theorem pay3_apply (x0 : Vec Ideal S10000x128 .f32) (x1 : Vec Ideal S128x128 .f32) (x2 : Vec Ideal S1x128 .f32) (j : S10000x128.Idx) :
    k3_pay1 (F := Ideal) x0 x1 x2 j = (∑ k : Fin 128, x0 (lhsAtB j k) * x1 (rhsAtB j k)) + x2 (biasAtB j) := by
  unfold k3_pay1
  rw [addf_apply, matmulB_apply, shapeCast_self, shapeCast_self, rowBcastB_apply]
  rfl

/-! ## The [64,128] × [128,2] product of the output layer -/

theorem lhsO_0 (j : S64x2.Idx) (q : dot_S64x128_S128x2_S64x2_1_0_0_1_n_n.contr.Idx) :
    (dot_S64x128_S128x2_S64x2_1_0_0_1_n_n.lhsIdx j q 0).val = (j 0).val := by
  unfold DotDims.lhsIdx
  rw [dif_neg (show ¬(0 : Fin S64x128.rank) ∈ dot_S64x128_S128x2_S64x2_1_0_0_1_n_n.lhsBatch by decide), dif_pos (show (0 : Fin S64x128.rank) ∈ dot_S64x128_S128x2_S64x2_1_0_0_1_n_n.lhsNonContracting by decide)]
  rfl
theorem lhsO_1 (j : S64x2.Idx) (q : dot_S64x128_S128x2_S64x2_1_0_0_1_n_n.contr.Idx) :
    (dot_S64x128_S128x2_S64x2_1_0_0_1_n_n.lhsIdx j q 1).val = (q ⟨0, by decide⟩).val :=
  dot_S64x128_S128x2_S64x2_1_0_0_1_n_n.lhsIdx_val_of_single rfl j q
theorem rhsO_0 (j : S64x2.Idx) (q : dot_S64x128_S128x2_S64x2_1_0_0_1_n_n.contr.Idx) :
    (dot_S64x128_S128x2_S64x2_1_0_0_1_n_n.rhsIdx j q 0).val = (q ⟨0, by decide⟩).val :=
  dot_S64x128_S128x2_S64x2_1_0_0_1_n_n.rhsIdx_val_of_single rfl j q
theorem rhsO_1 (j : S64x2.Idx) (q : dot_S64x128_S128x2_S64x2_1_0_0_1_n_n.contr.Idx) :
    (dot_S64x128_S128x2_S64x2_1_0_0_1_n_n.rhsIdx j q 1).val = (j 1).val := by
  unfold DotDims.rhsIdx
  rw [dif_neg (show ¬(1 : Fin S128x2.rank) ∈ dot_S64x128_S128x2_S64x2_1_0_0_1_n_n.rhsBatch by decide), dif_pos (show (1 : Fin S128x2.rank) ∈ dot_S64x128_S128x2_S64x2_1_0_0_1_n_n.rhsNonContracting by decide)]
  rfl

/-- Row `j 0` of the left factor at column `k`. -/
abbrev lhsAtO (j : S64x2.Idx) (k : Fin 128) : S64x128.Idx := fun a => match a with
  | ⟨0, _⟩ => ⟨(j 0).val, (j 0).isLt⟩
  | ⟨1, _⟩ => ⟨k.val, k.isLt⟩
/-- Row `k` of the right factor at column `j 1`. -/
abbrev rhsAtO (j : S64x2.Idx) (k : Fin 128) : S128x2.Idx := fun a => match a with
  | ⟨0, _⟩ => ⟨k.val, k.isLt⟩
  | ⟨1, _⟩ => ⟨(j 1).val, (j 1).isLt⟩

/-- The matrix unit's product into a zero accumulator, read at an entry, is the row-by-column sum over the 128
    contracted positions. -/
theorem matmulO_apply {φ₁ φ₂ : FTy} (x : FVec Ideal S64x128 φ₁) (w : FVec Ideal S128x2 φ₂) (j : S64x2.Idx) :
    matmul dot_S64x128_S128x2_S64x2_1_0_0_1_n_n none x w (constant (F := Ideal) S64x2 .f32 0x00000000#32) j
      = ∑ k : Fin 128, x (lhsAtO j k) * w (rhsAtO j k) := by
  refine (Ideal.matmul_constant_zero_apply dot_S64x128_S128x2_S64x2_1_0_0_1_n_n none x w j).trans ?_
  rw [← Equiv.sum_comp (ValueIdx.contrEquiv1 dot_S64x128_S128x2_S64x2_1_0_0_1_n_n 128 rfl rfl).symm]
  refine Finset.sum_congr rfl fun k _ => ?_
  have hk := ValueIdx.contrEquiv1_symm_val dot_S64x128_S128x2_S64x2_1_0_0_1_n_n 128 rfl rfl k
  have el : dot_S64x128_S128x2_S64x2_1_0_0_1_n_n.lhsIdx j ((ValueIdx.contrEquiv1 dot_S64x128_S128x2_S64x2_1_0_0_1_n_n 128 rfl rfl).symm k) = lhsAtO j k := funext fun a => Fin.ext (by
    match a with
    | ⟨0, _⟩ => exact lhsO_0 _ _
    | ⟨1, _⟩ => exact (lhsO_1 _ _).trans hk)
  have er : dot_S64x128_S128x2_S64x2_1_0_0_1_n_n.rhsIdx j ((ValueIdx.contrEquiv1 dot_S64x128_S128x2_S64x2_1_0_0_1_n_n 128 rfl rfl).symm k) = rhsAtO j k := funext fun a => Fin.ext (by
    match a with
    | ⟨0, _⟩ => exact (rhsO_0 _ _).trans hk
    | ⟨1, _⟩ => exact rhsO_1 _ _)
  rw [el, er]

/-- The one bias row at column `j 1`. -/
abbrev biasAtO (j : S64x2.Idx) : S1x2.Idx := fun a => match a with
  | ⟨0, _⟩ => (0 : Fin 1)
  | ⟨1, _⟩ => ⟨(j 1).val, (j 1).isLt⟩

/-- A [1,2] row broadcast down 64 rows, read at an entry, is the row at that column. -/
theorem rowBcastO_apply {α : Type} (v : S1x2.Idx → α) (h : S1x2.Broadcasts S64x2) (j : S64x2.Idx) :
    broadcastTo S64x2 v h j = v (biasAtO j) :=
  broadcastTo_apply v h j (biasAtO j) fun ax => by
    match ax with
    | ⟨0, _⟩ => rfl
    | ⟨1, _⟩ => rfl

/-- The output layer's product body at an entry. -/
theorem pay6_apply (x0 : Vec Ideal S64x128 .f32) (x1 : Vec Ideal S128x2 .f32) (x2 : Vec Ideal S1x2 .f32) (j : S64x2.Idx) :
    k6_pay1 (F := Ideal) x0 x1 x2 j = (∑ k : Fin 128, x0 (lhsAtO j k) * x1 (rhsAtO j k)) + x2 (biasAtO j) := by
  unfold k6_pay1
  rw [addf_apply, matmulO_apply, shapeCast_self, shapeCast_self, rowBcastO_apply]
  rfl

end Cert.KernelIdeal.Hand

end
-- ==== Proof.PayPointwise.lean ====
/-
  The two pointwise bodies read at an entry, at the ideal instance.

  The scaling body multiplies a block of gathered rows by a one-column block of edge weights broadcast along the
  row: entry (p, q) is rows(p, q) · weight(p, 0). The bias-and-rectify body adds a one-row bias broadcast down the
  rows and takes the maximum with zero: entry (p, q) is max (agg(p, q) + bias(0, q)) 0.
-/
import proofs.«175690_j21294447853629_1_alg».proof.Proof.PayMatmul

set_option maxRecDepth 16384

noncomputable section

namespace Cert.KernelIdeal.Hand

open Cert.KernelIdeal Cert.KernelIdeal.Gen Idealize.ShloMosaic Idealize.ShloMosaic.TcCoe Idealize.ShloMosaic.ValueIdx

/-- The one weight column at row `j 0`. -/
abbrev colAtB (j : S10000x128.Idx) : S10000x1.Idx := fun a => match a with
  | ⟨0, _⟩ => ⟨(j 0).val, (j 0).isLt⟩
  | ⟨1, _⟩ => (0 : Fin 1)

/-- A [10000,1] column broadcast along 128 columns, read at an entry, is the column at that row. -/
theorem colBcastB_apply {α : Type} (v : S10000x1.Idx → α) (h : S10000x1.Broadcasts S10000x128) (j : S10000x128.Idx) :
    broadcastTo S10000x128 v h j = v (colAtB j) :=
  broadcastTo_apply v h j (colAtB j) fun ax => by
    match ax with
    | ⟨0, _⟩ => rfl
    | ⟨1, _⟩ => rfl

/-- The first layer's scaling body at an entry. -/
theorem pay1_apply (x0 : Vec Ideal S10000x128 .f32) (x1 : Vec Ideal S10000x1 .f32) (j : S10000x128.Idx) :
    k1_pay1 (F := Ideal) x0 x1 j = x0 j * x1 (colAtB j) := by
  unfold k1_pay1
  rw [mulf_apply, shapeCast_self, shapeCast_self, colBcastB_apply]

/-- The second layer's scaling body at an entry. -/
theorem pay4_apply (x0 : Vec Ideal S10000x128 .f32) (x1 : Vec Ideal S10000x1 .f32) (j : S10000x128.Idx) :
    k4_pay1 (F := Ideal) x0 x1 j = x0 j * x1 (colAtB j) := by
  unfold k4_pay1
  rw [mulf_apply, shapeCast_self, shapeCast_self, colBcastB_apply]

/-- The first layer's bias-and-rectify body at an entry. -/
theorem pay2_apply (x0 : Vec Ideal S10000x128 .f32) (x1 : Vec Ideal S1x128 .f32) (j : S10000x128.Idx) :
    k2_pay1 (F := Ideal) x0 x1 j = max (x0 j + x1 (biasAtB j)) (Ideal.ofBits .f32 0x00000000#32) := by
  unfold k2_pay1
  rw [maximumf_apply, addf_apply, shapeCast_self, shapeCast_self, rowBcastB_apply]
  rfl

/-- The second layer's bias-and-rectify body at an entry. -/
theorem pay5_apply (x0 : Vec Ideal S10000x128 .f32) (x1 : Vec Ideal S1x128 .f32) (j : S10000x128.Idx) :
    k5_pay1 (F := Ideal) x0 x1 j = max (x0 j + x1 (biasAtB j)) (Ideal.ofBits .f32 0x00000000#32) := by
  unfold k5_pay1
  rw [maximumf_apply, addf_apply, shapeCast_self, shapeCast_self, rowBcastB_apply]
  rfl

end Cert.KernelIdeal.Hand

end
-- ==== Proof.Spec.lean ====
/-
  The four whole-array functions the seven regions compute, at the ideal instance.

  A region's grid walks its output array block by block, and each point computes its block from the matching
  blocks of the inputs. Since every entry of these bodies depends only on the same row (and the whole of the small
  operands), the blocks are restrictions of one function of the whole arrays:
    linear      rows × weights plus a bias row            [100000,128]
    scaleRows   each row times its edge weight            [1700000,128]
    biasRelu    a bias row added, then the maximum with 0 [100000,128]
    linearOut   rows × weights plus a bias row            [64,2]
-/
import proofs.«175690_j21294447853629_1_alg».proof.Proof.PayPointwise

set_option maxRecDepth 16384

noncomputable section

namespace Cert.KernelIdeal.Hand

open Cert.KernelIdeal Cert.KernelIdeal.Gen Idealize.ShloMosaic Idealize.ShloMosaic.TcCoe Idealize.ShloMosaic.ValueIdx

/-- The zero offsets of a whole-buffer access. -/
theorem hz2 : (![0, 0] : Fin 2 → Nat) = fun _ => 0 := funext fun a => by fin_cases a <;> rfl

/-- Row `i 0` of the node features at column `k`. -/
abbrev lhsAtN (i : S100000x128.Idx) (k : Fin 128) : S100000x128.Idx := fun a => match a with
  | ⟨0, _⟩ => ⟨(i 0).val, (i 0).isLt⟩
  | ⟨1, _⟩ => ⟨k.val, k.isLt⟩
/-- Row `k` of the weights at column `i 1`. -/
abbrev rhsAtN (i : S100000x128.Idx) (k : Fin 128) : S128x128.Idx := fun a => match a with
  | ⟨0, _⟩ => ⟨k.val, k.isLt⟩
  | ⟨1, _⟩ => ⟨(i 1).val, (i 1).isLt⟩
/-- The bias row at column `i 1`. -/
abbrev biasAtN (i : S100000x128.Idx) : S1x128.Idx := fun a => match a with
  | ⟨0, _⟩ => (0 : Fin 1)
  | ⟨1, _⟩ => ⟨(i 1).val, (i 1).isLt⟩
/-- The edge-weight column at row `i 0`. -/
abbrev colAtE (i : S1700000x128.Idx) : S1700000x1.Idx := fun a => match a with
  | ⟨0, _⟩ => ⟨(i 0).val, (i 0).isLt⟩
  | ⟨1, _⟩ => (0 : Fin 1)

/-- Node features times a weight matrix plus a bias row: entry (r, q) is Σₖ A(r, k) · W(k, q) + b(0, q). -/
def linear (A : (⟨S100000x128, .f32⟩ : BufTy).Contents (Elt Ideal)) (W : (⟨S128x128, .f32⟩ : BufTy).Contents (Elt Ideal))
    (b : (⟨S1x128, .f32⟩ : BufTy).Contents (Elt Ideal)) : (⟨S100000x128, .f32⟩ : BufTy).Contents (Elt Ideal) :=
  fun i => (∑ k : Fin 128, A (lhsAtN i k) * W (rhsAtN i k)) + b (biasAtN i)

/-- Every gathered row times its edge's weight: entry (e, q) is g(e, q) · n(e, 0). -/
def scaleRows (g : (⟨S1700000x128, .f32⟩ : BufTy).Contents (Elt Ideal)) (n : (⟨S1700000x1, .f32⟩ : BufTy).Contents (Elt Ideal)) :
    (⟨S1700000x128, .f32⟩ : BufTy).Contents (Elt Ideal) :=
  fun i => g i * n (colAtE i)

/-- A bias row added to every row, then the maximum with zero: entry (r, q) is max (a(r, q) + b(0, q)) 0. -/
def biasRelu (a : (⟨S100000x128, .f32⟩ : BufTy).Contents (Elt Ideal)) (b : (⟨S1x128, .f32⟩ : BufTy).Contents (Elt Ideal)) :
    (⟨S100000x128, .f32⟩ : BufTy).Contents (Elt Ideal) :=
  fun i => max (a i + b (biasAtN i)) (Ideal.ofBits .f32 0x00000000#32)

/-- Pooled features times the output weights plus the output bias: entry (g, o) is Σₖ P(g, k) · W(k, o) + b(0, o). -/
def linearOut (P : (⟨S64x128, .f32⟩ : BufTy).Contents (Elt Ideal)) (W : (⟨S128x2, .f32⟩ : BufTy).Contents (Elt Ideal))
    (b : (⟨S1x2, .f32⟩ : BufTy).Contents (Elt Ideal)) : (⟨S64x2, .f32⟩ : BufTy).Contents (Elt Ideal) :=
  fun j => (∑ k : Fin 128, P (lhsAtO j k) * W (rhsAtO j k)) + b (biasAtO j)

end Cert.KernelIdeal.Hand

end
-- ==== Proof.LibLayout.lean ====
/-
  Two column layouts of small arrays read at an index: a vector viewed as a one-column matrix, and a one-column
  matrix repeated along its rows' second axis. (The library has the row forms; these are the column forms a
  keep-dimensions row reduction produces.)
-/
import Idealize.ShloMosaic.Lib.Pipeline.Value
import Idealize.ShloMosaic.Lib.ValueIdx

namespace Cert.Attn.Layout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Attn.Layout
-- ==== Proof.LibHostRead.lean ====
/-
  Small layout operations of a host program, read at an index, generic in the sizes.

  * A vector `[a]` broadcast to a column `[a, 1]` reads the vector at the row (`bcastCol_apply`); a scalar broadcast
    to any shape reads the scalar (`bcastScalar_apply`); a vector `[b]` broadcast to a row `[1, b]` and then to
    `[a, b]` reads the vector at the column (`bcastRow_apply`).
  * Row `r` of a two-row array `[2, E]`, sliced out as `[1, E]` and reshaped to `[E]`, reads the array at `(r, e)`
    (`rowSlice_apply`).
  * The plain product of an `A × K` by a `K × B` matrix over the extended reals, read at `(i, j)`, is the sum over
    the contracted coordinate of the products of the entries: for the host's product (`plainDot_apply`) and for the
    kernel's product accumulated into a zero constant (`plainMatmul_zero_apply`).
-/
import Idealize.ShloMosaic.Lib.ValueIdx
import Idealize.ShloMosaic.Lib.Pipeline.Value
import Idealize.ShloMosaic.Lib.ValueLayout
import Idealize.ShloMosaic.Lib.StackMember
import Idealize.ShloMosaic.PureOps.Ideal.Laws

noncomputable section

open scoped BigOperators

namespace Cert.LibHR

open Idealize.ShloMosaic Idealize.ShloMosaic.ValueIdx

/-! ## Broadcasts -/

/-- A vector broadcast to a one-column matrix reads the vector at the row. -/
theorem bcastCol_apply {α : Type} {a : Nat} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) :=
  broadcastInDim_apply _ h x (ix2 i u) (ix1 i) (fun b => match b with
    | ⟨0, _⟩ => by
      show i.val = if a = 1 then 0 else i.val
      split
      · have := i.isLt; omega
      · rfl)

/-- A scalar broadcast to any shape reads the scalar. -/
theorem bcastScalar_apply {α : Type} {t : Shape} (h : (⟨0, ![]⟩ : Shape).BroadcastsInDim t ![])
    (x : (⟨0, ![]⟩ : Shape).Idx → α) (j : t.Idx) : broadcastInDim t ![] h x j = x ix0 :=
  broadcastInDim_apply _ h x j ix0 (fun b => b.elim0)

/-- A vector broadcast to a one-row matrix and then down the rows reads the vector at the column. -/
theorem bcastRow_apply {α : Type} {a b : Nat} (h1 : (⟨1, ![b]⟩ : Shape).BroadcastsInDim ⟨2, ![1, b]⟩ ![1])
    (h2 : (⟨2, ![1, b]⟩ : Shape).BroadcastsInDim ⟨2, ![a, b]⟩ ![0, 1]) (x : (⟨1, ![b]⟩ : Shape).Idx → α)
    (i : Fin a) (j : Fin b) :
    broadcastInDim ⟨2, ![a, b]⟩ ![0, 1] h2 (broadcastInDim ⟨2, ![1, b]⟩ ![1] h1 x) (ix2 i j) = x (ix1 j) := by
  refine (broadcastInDim_apply _ h2 _ (ix2 i j) (ix2 (0 : Fin 1) j) (fun c => match c with
    | ⟨0, _⟩ => by
      show 0 = if (1 : Nat) = 1 then 0 else i.val
      rw [if_pos rfl]
    | ⟨1, _⟩ => by
      show j.val = if b = 1 then 0 else j.val
      split
      · have := j.isLt; omega
      · rfl)).trans ?_
  exact broadcastInDim_apply _ h1 x (ix2 (0 : Fin 1) j) (ix1 j) (fun c => match c with
    | ⟨0, _⟩ => by
      show j.val = if b = 1 then 0 else j.val
      split
      · have := j.isLt; omega
      · rfl)

/-! ## One row of a two-row array -/

/-- Row `r` of a `[2, E]` array, sliced out and reshaped to `[E]`, reads the array at `(r, e)`. -/
theorem rowSlice_apply {α : Type} {E : Nat} (r : Fin 2) (x : (⟨2, ![2, E]⟩ : Shape).Idx → α)
    (hs : (⟨2, ![2, E]⟩ : Shape).Slices ![r.val, 0] ⟨2, ![1, E]⟩)
    (hc : (⟨2, ![1, E]⟩ : Shape).ShapeCasts ⟨1, ![E]⟩) (e : Fin E) :
    shapeCast ⟨1, ![E]⟩ (extractStridedSlice ⟨2, ![1, E]⟩ ![r.val, 0] x hs) hc (ix1 e) = x (ix2 r e) := by
  refine (shapeCast_apply _ hc (ix1 e) (ix2 (0 : Fin 1) e) (by
    rw [Shape.rowMajor_val_two, Shape.rowMajor_val_one]
    show 0 * E + e.val = e.val
    omega)).trans ?_
  exact extractStridedSlice_apply ![r.val, 0] x hs (ix2 (0 : Fin 1) e) (ix2 r e) (fun c => match c with
    | ⟨0, _⟩ => by show r.val = r.val + 0; omega
    | ⟨1, _⟩ => by show e.val = 0 + e.val; omega)

/-! ## A plain matrix product -/

/-- The dimension numbers of the plain product of an `A × K` by a `K × B` matrix: the left operand's columns
    contracted with the right operand's rows, no batch axes. -/
abbrev plainDotDims (A K B : Nat)
    (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

/-- They are the library's plain dimension numbers. -/
theorem plainDotDims_eq (A K B : Nat)
    (wf : DotDims.WF ⟨2, ![A, K]⟩ ⟨2, ![K, B]⟩ ⟨2, ![A, B]⟩ [1] [0] [0] [1] [] []) :
    plainDotDims A K B wf = DotDims.plain A K B := rfl

/-- THE HOST'S PLAIN PRODUCT READ AT `(i, j)`, over the extended reals: the sum over the contracted coordinate of
    the products of the entries. -/
theorem plainDot_apply {φ₁ φ₂ : FTy} (A K B : Nat)
    (wf : DotDims.WF ⟨2, ![A, K]⟩ ⟨2, ![K, B]⟩ ⟨2, ![A, B]⟩ [1] [0] [0] [1] [] [])
    (l : (⟨2, ![A, K]⟩ : Shape).Idx → EReal) (r : (⟨2, ![K, B]⟩ : Shape).Idx → EReal) (i : Fin A) (j : Fin B) :
    Host.dotGeneral (F := Ideal) (φ₁ := φ₁) (φ₂ := φ₂) (plainDotDims A K B wf) none l r (ix2 i j)
      = ∑ k : Fin K, l (ix2 i k) * r (ix2 k j) :=
  StackMember.dotGeneral_plain_apply (φ₁ := φ₁) (φ₂ := φ₂) none l r i j

/-- THE KERNEL'S PLAIN PRODUCT INTO A ZERO ACCUMULATOR READ AT `(i, j)`, over the extended reals: the same sum. -/
theorem plainMatmul_zero_apply {φ₁ φ₂ : FTy} (A K B : Nat)
    (wf : DotDims.WF ⟨2, ![A, K]⟩ ⟨2, ![K, B]⟩ ⟨2, ![A, B]⟩ [1] [0] [0] [1] [] [])
    (l : (⟨2, ![A, K]⟩ : Shape).Idx → EReal) (r : (⟨2, ![K, B]⟩ : Shape).Idx → EReal) (i : Fin A) (j : Fin B) :
    FloatOps.matmul (F := Ideal) (φ₁ := φ₁) (φ₂ := φ₂) (plainDotDims A K B wf) none l r
        (constant (F := Ideal) ⟨2, ![A, B]⟩ .f32 0x00000000#32) (ix2 i j)
      = ∑ k : Fin K, l (ix2 i k) * r (ix2 k j) := by
  rw [Ideal.matmul_constant_zero_apply, ← Ideal.dotGeneral_apply (plainDotDims A K B wf) none .single l r (ix2 i j)]
  exact plainDot_apply (φ₁ := φ₁) (φ₂ := φ₂) A K B wf l r i j

end Cert.LibHR

end
-- ==== Proof.Bridge.lean ====
/-
  The four whole-array functions of the regions are the reference's host operations.

  At the ideal instance, over arbitrary arrays:
    * rows × weights + a zero bias row is the host's dot_general (the row-by-column sums are the same sums; x + 0 = x
      on the extended reals);
    * rows × weights + a bias row [1,n] is the host's dot_general plus the bias vector broadcast [n] → [1,n] → [m,n];
    * each row times its edge weight, the weights given as the [E,1] cast of a vector, is the host's product of the
      weights broadcast [E] → [E,1] → [E,128] with the rows (multiplication commutes on the extended reals);
    * rows plus a bias row, then the maximum with zero, is the host's maximum of the sum with the bias broadcast
      [n] → [1,n] → [m,n] and the zero constant broadcast.
  None of these laws needs finiteness.
-/
import proofs.«175690_j21294447853629_1_alg».proof.Proof.Spec
import proofs.«175690_j21294447853629_1_alg».proof.Proof.RefRead
import proofs.«175690_j21294447853629_1_alg».proof.Proof.LibLayout
import proofs.«175690_j21294447853629_1_alg».proof.Proof.LibHostRead

set_option maxRecDepth 16384

noncomputable section

namespace Cert.KernelIdeal.Hand

open Cert.KernelIdeal Idealize.ShloMosaic Idealize.ShloMosaic.TcCoe Idealize.ShloMosaic.ValueIdx

/-! ## Index equations -/

theorem colAtE_ix2 (p : Fin 1700000) (q : Fin 128) : colAtE (ix2 p q) = ix2 p (0 : Fin 1) :=
  funext fun a => Fin.ext (by match a with | ⟨0, _⟩ => rfl | ⟨1, _⟩ => rfl)
theorem biasAtN_ix2 (p : Fin 100000) (q : Fin 128) : biasAtN (ix2 p q) = ix2 (0 : Fin 1) q :=
  funext fun a => Fin.ext (by match a with | ⟨0, _⟩ => rfl | ⟨1, _⟩ => rfl)
theorem biasAtO_ix2 (p : Fin 64) (q : Fin 2) : biasAtO (ix2 p q) = ix2 (0 : Fin 1) q :=
  funext fun a => Fin.ext (by match a with | ⟨0, _⟩ => rfl | ⟨1, _⟩ => rfl)

/-- An `[a, 1]` array broadcast along a second axis of extent `b` reads, at `(p, c)`, the operand's one entry of row `p`. -/
theorem bcastAlong_apply {α : Type} {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) :=
  broadcastInDim_apply _ h v (ix2 p c) (ix2 p (0 : Fin 1)) (fun ax => match ax with
    | ⟨0, _⟩ => by
      show p.val = if a = 1 then 0 else p.val
      split
      · have := p.isLt; omega
      · rfl
    | ⟨1, _⟩ => by
      show 0 = if (1 : Nat) = 1 then 0 else c.val
      rw [if_pos rfl])

/-! ## The scaling regions -/

/-- Each row times its edge weight is the host's product of the broadcast weights with the rows. -/
theorem scaleRows_eq (g : FVec Ideal S1700000x128 .f32) (n : FVec Ideal S1700000 .f32)
    (hc : S1700000.ShapeCasts S1700000x1) (h1 : S1700000.BroadcastsInDim S1700000x1 ![0])
    (h2 : S1700000x1.BroadcastsInDim S1700000x128 ![0, 1]) :
    scaleRows g (shapeCast S1700000x1 n hc)
      = mulf (F := Ideal) (broadcastInDim S1700000x128 ![0, 1] h2 (broadcastInDim S1700000x1 ![0] h1 n)) g := by
  funext i
  obtain ⟨p, q, rfl⟩ : ∃ (p : Fin 1700000) (q : Fin 128), i = ix2 p q := ⟨i 0, i 1, eq_ix2 i⟩
  unfold scaleRows
  rw [mulf_apply, colAtE_ix2, bcastAlong_apply, Cert.LibHR.bcastCol_apply, Cert.Attn.Layout.shapeCast_a_a1_apply, mul_comm]

/-! ## The bias-and-rectify regions -/

/-- Rows plus a bias row, rectified, is the host's maximum of the sum with the broadcast bias and the broadcast zero. -/
theorem biasRelu_eq (a : FVec Ideal S100000x128 .f32) (b : FVec Ideal S128 .f32)
    (hc : S128.ShapeCasts S1x128) (h1 : S128.BroadcastsInDim S1x128 ![1]) (h2 : S1x128.BroadcastsInDim S100000x128 ![0, 1])
    (h0 : S_.BroadcastsInDim S100000x128 ![]) :
    biasRelu a (shapeCast S1x128 b hc)
      = maximumf (F := Ideal) (addf (F := Ideal) a (broadcastInDim S100000x128 ![0, 1] h2 (broadcastInDim S1x128 ![1] h1 b)))
          (broadcastInDim S100000x128 ![] h0 (constant (F := Ideal) S_ .f32 0x00000000#32)) := by
  funext i
  obtain ⟨p, q, rfl⟩ : ∃ (p : Fin 100000) (q : Fin 128), i = ix2 p q := ⟨i 0, i 1, eq_ix2 i⟩
  unfold biasRelu
  rw [maximumf_apply, addf_apply, biasAtN_ix2, Cert.LibHR.bcastRow_apply, Cert.LibHR.bcastScalar_apply, shapeCast_a_1a_apply]
  rfl

/-! ## The product regions -/

/-- The zero bias row the two hidden layers' products are given: a zero scalar broadcast to [128], cast to [1,128]. -/
theorem zeroRow_apply (hb : S_.BroadcastsInDim S128 ![]) (hc : S128.ShapeCasts S1x128) (q : Fin 128) :
    shapeCast S1x128 (broadcastInDim S128 ![] hb (constant (F := Ideal) S_ .f32 0x00000000#32)) hc (ix2 (0 : Fin 1) q) = (0 : EReal) := by
  rw [shapeCast_a_1a_apply, Cert.LibHR.bcastScalar_apply, constant_apply, Ideal.ofBits_zero_f32]

/-- Rows × weights over the whole array against the host's dot_general, entry by entry: the same 128-term sums. -/
theorem linear_sum_eq (A : (⟨S100000x128, .f32⟩ : BufTy).Contents (Elt Ideal)) (W : (⟨S128x128, .f32⟩ : BufTy).Contents (Elt Ideal)) (p : Fin 100000) (q : Fin 128) :
    (∑ k : Fin 128, A (lhsAtN (ix2 p q) k) * W (rhsAtN (ix2 p q) k))
      = ∑ k : Fin 128, A (Cert.ReferenceIdeal.ReadP.lidx_main_v30 (ix2 p q) k) * W (Cert.ReferenceIdeal.ReadP.ridx_main_v30 (ix2 p q) k) := by
  refine Finset.sum_congr rfl fun k _ => ?_
  have el : lhsAtN (ix2 p q) k = Cert.ReferenceIdeal.ReadP.lidx_main_v30 (ix2 p q) k :=
    funext fun a => Fin.ext (by match a with | ⟨0, _⟩ => rfl | ⟨1, _⟩ => rfl)
  have er : rhsAtN (ix2 p q) k = Cert.ReferenceIdeal.ReadP.ridx_main_v30 (ix2 p q) k :=
    funext fun a => Fin.ext (by match a with | ⟨0, _⟩ => rfl | ⟨1, _⟩ => rfl)
  rw [el, er]

/-- The first layer's product region: node features × W1 + 0 is the reference's `x @ W1`. -/
theorem linear1_eq (x0 : (⟨S100000x128, .f32⟩ : BufTy).Contents (Elt Ideal)) (x3 : (⟨S128x128, .f32⟩ : BufTy).Contents (Elt Ideal))
    (hb : S_.BroadcastsInDim S128 ![]) (hc : S128.ShapeCasts S1x128) :
    linear x0 x3 (shapeCast S1x128 (broadcastInDim S128 ![] hb (constant (F := Ideal) S_ .f32 0x00000000#32)) hc)
      = Cert.ReferenceIdeal.ReadP.val_main_v30 (F := Ideal) x0 x3 := by
  funext i
  obtain ⟨p, q, rfl⟩ : ∃ (p : Fin 100000) (q : Fin 128), i = ix2 p q := ⟨i 0, i 1, eq_ix2 i⟩
  unfold linear
  rw [biasAtN_ix2, zeroRow_apply, add_zero, linear_sum_eq, Cert.ReferenceIdeal.ReadP.val_main_v30_apply]

/-- The second layer's product region: the first layer's output × W2 + 0 is the reference's `h @ W2`. -/
theorem linear2_eq (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal))
    (hb : S_.BroadcastsInDim S128 ![]) (hc : S128.ShapeCasts S1x128) :
    linear (Cert.ReferenceIdeal.ReadP.val_main_v47 (F := Ideal) x0 x1 x3 x4) x5
        (shapeCast S1x128 (broadcastInDim S128 ![] hb (constant (F := Ideal) S_ .f32 0x00000000#32)) hc)
      = Cert.ReferenceIdeal.ReadP.val_main_v74 (F := Ideal) x0 x1 x3 x4 x5 := by
  funext i
  obtain ⟨p, q, rfl⟩ : ∃ (p : Fin 100000) (q : Fin 128), i = ix2 p q := ⟨i 0, i 1, eq_ix2 i⟩
  unfold linear
  rw [biasAtN_ix2, zeroRow_apply, add_zero, Cert.ReferenceIdeal.ReadP.val_main_v74_apply]
  refine Finset.sum_congr rfl fun k _ => ?_
  have el : lhsAtN (ix2 p q) k = Cert.ReferenceIdeal.ReadP.lidx_main_v74 (ix2 p q) k :=
    funext fun a => Fin.ext (by match a with | ⟨0, _⟩ => rfl | ⟨1, _⟩ => rfl)
  have er : rhsAtN (ix2 p q) k = Cert.ReferenceIdeal.ReadP.ridx_main_v74 (ix2 p q) k :=
    funext fun a => Fin.ext (by match a with | ⟨0, _⟩ => rfl | ⟨1, _⟩ => rfl)
  rw [el, er]

/-- The output layer's product region: pooled features × Wlin + blin is the reference's `pooled @ Wlin + blin`. -/
theorem linearOut_eq (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) (x7 : (⟨S128x2, .f32⟩ : BufTy).Contents (Elt Ideal)) (x8 : (⟨S2, .f32⟩ : BufTy).Contents (Elt Ideal)) (hc : S2.ShapeCasts S1x2) :
    linearOut (Cert.ReferenceIdeal.ReadP.val_main_v103 (F := Ideal) x0 x1 x2 x3 x4 x5 x6) x7 (shapeCast S1x2 x8 hc)
      = Cert.ReferenceIdeal.ReadP.val_main_v107 (F := Ideal) x0 x1 x2 x3 x4 x5 x6 x7 x8 := by
  funext i
  obtain ⟨p, q, rfl⟩ : ∃ (p : Fin 64) (q : Fin 2), i = ix2 p q := ⟨i 0, i 1, eq_ix2 i⟩
  unfold linearOut
  rw [Cert.ReferenceIdeal.ReadP.val_main_v107_apply, Cert.ReferenceIdeal.ReadP.val_main_v104_apply, Cert.ReferenceIdeal.ReadP.val_main_v106_apply, Cert.ReferenceIdeal.ReadP.val_main_v105_apply, biasAtO_ix2, shapeCast_a_1a_apply]
  rw [Ideal.addf_def]
  refine congrArg₂ (fun a b => a + b) (Finset.sum_congr rfl fun k _ => ?_) ?_
  · have el : lhsAtO (ix2 p q) k = Cert.ReferenceIdeal.ReadP.lidx_main_v104 (ix2 p q) k :=
      funext fun a => Fin.ext (by match a with | ⟨0, _⟩ => rfl | ⟨1, _⟩ => rfl)
    have er : rhsAtO (ix2 p q) k = Cert.ReferenceIdeal.ReadP.ridx_main_v104 (ix2 p q) k :=
      funext fun a => Fin.ext (by match a with | ⟨0, _⟩ => rfl | ⟨1, _⟩ => rfl)
    rw [el, er]
  · exact congrArg x8 (funext fun a => Fin.ext (by match a with | ⟨0, _⟩ => rfl))

end Cert.KernelIdeal.Hand

end
-- ==== Proof.Region0.lean ====
/-
  Region 0: the output array after the grid's 10 points.

  Every point computes a block of rows times the weights plus the bias row, and writes it back as block `t` of the output (rows
  10000·t … 10000·t + 9999). The moving input windows fetch the same rows, the small operands are whole. So what
  point `t` writes back is block `t` of `linear` of the arrays as the region finds them, the blocks tile the output,
  and the output array ends at `linear` of those arrays.
-/
import proofs.«175690_j21294447853629_1_alg».proof.Proof.Gen.KernelIdeal.Frame
import proofs.«175690_j21294447853629_1_alg».proof.Proof.Spec
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps over the grid: a moving window and the output are at block row `t`, block column 0;
    a whole operand is at block (0, 0). -/
theorem idx_facts0 : ∀ t : Fin cfg0.N,
    win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- Input window 0's block at point `t`, read at an entry, is the array as the region finds it at row 10000·t + the entry's row. -/
theorem iblk0_0_apply (c : Dev nD) (t : Fin cfg0.N) (x : S10000x128.Idx) (k : S100000x128.Idx)
    (hk0 : (k 0).val = 10000 * t.val + (x 0).val) (hk1 : (k 1).val = (x 1).val) :
    (iblk0 V c 0 t : Vec Ideal S10000x128 .f32) x = (V c main_arg0 : S100000x128.Idx → Elt Ideal .f32) k := by
  obtain ⟨e0, e1, -, -, -, -, -, -⟩ := idx_facts0 t
  unfold iblk0
  rw [View.read_apply]
  show V c main_arg0 _ = V c main_arg0 _
  congr 1
  funext a
  apply Fin.ext
  match a with
  | ⟨0, _⟩ => show win0_0.index t 0 * 10000 + 1 * (x 0).val = (k 0).val; rw [e0, hk0]; omega
  | ⟨1, _⟩ => show win0_0.index t 1 * 128 + 1 * (x 1).val = (k 1).val; rw [e1, hk1]; omega

/-- Input window 1's block at point `t`, read at an entry, is the array as the region finds it at the same entry. -/
theorem iblk0_1_apply (c : Dev nD) (t : Fin cfg0.N) (x : S128x128.Idx) (k : S128x128.Idx)
    (hk0 : (k 0).val = (x 0).val) (hk1 : (k 1).val = (x 1).val) :
    (iblk0 V c 1 t : Vec Ideal S128x128 .f32) x = (V c main_arg3 : S128x128.Idx → Elt Ideal .f32) k := by
  obtain ⟨-, -, e2, e3, -, -, -, -⟩ := idx_facts0 t
  unfold iblk0
  rw [View.read_apply]
  show V c main_arg3 _ = V c main_arg3 _
  congr 1
  funext a
  apply Fin.ext
  match a with
  | ⟨0, _⟩ => show win0_1.index t 0 * 128 + 1 * (x 0).val = (k 0).val; rw [e2, hk0]; omega
  | ⟨1, _⟩ => show win0_1.index t 1 * 128 + 1 * (x 1).val = (k 1).val; rw [e3, hk1]; omega

/-- Input window 2's block at point `t`, read at an entry, is the array as the region finds it at the same entry. -/
theorem iblk0_2_apply (c : Dev nD) (t : Fin cfg0.N) (x : S1x128.Idx) (k : S1x128.Idx)
    (hk0 : (k 0).val = (x 0).val) (hk1 : (k 1).val = (x 1).val) :
    (iblk0 V c 2 t : Vec Ideal S1x128 .f32) x = (V c main_v31 : S1x128.Idx → Elt Ideal .f32) k := by
  obtain ⟨-, -, -, -, e4, e5, -, -⟩ := idx_facts0 t
  unfold iblk0
  rw [View.read_apply]
  show V c main_v31 _ = V c main_v31 _
  congr 1
  funext a
  apply Fin.ext
  match a with
  | ⟨0, _⟩ => show win0_2.index t 0 * 1 + 1 * (x 0).val = (k 0).val; rw [e4, hk0]; omega
  | ⟨1, _⟩ => show win0_2.index t 1 * 128 + 1 * (x 1).val = (k 1).val; rw [e5, hk1]; omega

/-- What point `t` writes back is block `t` of `linear` of the arrays as the region finds them. -/
theorem flushed0 (c : Dev nD) (t : Fin cfg0.N) :
    (dat0 V c).flushed 3 t = ((cfg0.win 3).blk t).view.read (Elt Ideal) (linear (V c main_arg0) (V c main_arg3) (V c main_v31)) := by
  show (cfg0.win 3).cut (grid0.coords t) ((dat0 V c).after 3 t) = _
  rw [after0_3]
  unfold out0_3
  rw [View.canon_unit_zero hz2]
  simp only [View.ld_unit_zero (S := S10000x128) hz2, View.ld_unit_zero (S := S128x128) hz2, View.ld_unit_zero (S := S1x128) hz2]
  obtain ⟨-, -, -, -, -, -, e6, e7⟩ := idx_facts0 t
  funext j
  show k0_pay1 (F := Ideal) (iblk0 V c 0 t) (iblk0 V c 1 t) (iblk0 V c 2 t) j = _
  refine (pay0_apply _ _ _ j).trans ?_
  rw [View.read_apply]
  have hi0 : ((((cfg0.win 3).blk t).view.emb j) 0).val = 10000 * t.val + (j 0).val := by
    show win0_3.index t 0 * 10000 + 1 * (j 0).val = _; rw [e6]; omega
  have hi1 : ((((cfg0.win 3).blk t).view.emb j) 1).val = (j 1).val := by
    show win0_3.index t 1 * 128 + 1 * (j 1).val = _; rw [e7]; omega
  unfold linear
  congr 1
  · refine Finset.sum_congr rfl fun k _ => ?_
    congr 1
    · exact iblk0_0_apply V c t _ _ hi0 rfl
    · exact iblk0_1_apply V c t _ _ rfl hi1
  · exact iblk0_2_apply V c t _ _ rfl hi1

/-- An index of the output array is in point `t`'s block iff each coordinate is in the block's range on its axis. -/
theorem mem_blk0 (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v32).slice (win0_3.rect t)).set ↔ _
  rw [View.set_slice_whole, Rect.mem_set_unit]
  exact Iff.rfl

/-- The blocks tile the output: row `r` is in the block of point `r / 10000`. -/
theorem cover0 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨-, -, -, -, -, -, e6, e7⟩ := idx_facts0 t
  refine ⟨t, flush0_3 t, ?_⟩
  rw [mem_blk0]
  intro a
  match a with
  | ⟨0, _⟩ =>
    show win0_3.index t 0 * 10000 ≤ (i 0).val ∧ (i 0).val < win0_3.index t 0 * 10000 + 10000
    rw [e6, ht]; omega
  | ⟨1, _⟩ =>
    show win0_3.index t 1 * 128 ≤ (i 1).val ∧ (i 1).val < win0_3.index t 1 * 128 + 128
    rw [e7]; omega

/-- The output array after the region: `linear` of the arrays as the region finds them. -/
theorem final0 (c : Dev nD) : (dat0 V c).arrAt 3 cfg0.N = linear (V c main_arg0) (V c main_arg3) (V c main_v31) :=
  (dat0 V c).arrAt_eq_of_cover 3 (linear (V c main_arg0) (V c main_arg3) (V c main_v31)) (fun t _ => flushed0 V c t) (cover0)

end Cert.KernelIdeal.Hand

end
-- ==== Proof.Region1.lean ====
/-
  Region 1: the output array after the grid's 170 points.

  Every point computes a block of gathered rows, each times its edge weight, and writes it back as block `t` of the output (rows
  10000·t … 10000·t + 9999). The moving input windows fetch the same rows, the small operands are whole. So what
  point `t` writes back is block `t` of `scaleRows` of the arrays as the region finds them, the blocks tile the output,
  and the output array ends at `scaleRows` of those arrays.
-/
import proofs.«175690_j21294447853629_1_alg».proof.Proof.Gen.KernelIdeal.Frame
import proofs.«175690_j21294447853629_1_alg».proof.Proof.Spec
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps over the grid: a moving window and the output are at block row `t`, block column 0;
    a whole operand is at block (0, 0). -/
theorem idx_facts1 : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0 :=
  (by decide +kernel : ∀ t : Fin grid1.N, _)

/-- Input window 0's block at point `t`, read at an entry, is the array as the region finds it at row 10000·t + the entry's row. -/
theorem iblk1_0_apply (c : Dev nD) (t : Fin cfg1.N) (x : S10000x128.Idx) (k : S1700000x128.Idx)
    (hk0 : (k 0).val = 10000 * t.val + (x 0).val) (hk1 : (k 1).val = (x 1).val) :
    (iblk1 V c 0 t : Vec Ideal S10000x128 .f32) x = (V c main_v39 : S1700000x128.Idx → Elt Ideal .f32) k := by
  obtain ⟨e0, e1, -, -, -, -⟩ := idx_facts1 t
  unfold iblk1
  rw [View.read_apply]
  show V c main_v39 _ = V c main_v39 _
  congr 1
  funext a
  apply Fin.ext
  match a with
  | ⟨0, _⟩ => show win1_0.index t 0 * 10000 + 1 * (x 0).val = (k 0).val; rw [e0, hk0]; omega
  | ⟨1, _⟩ => show win1_0.index t 1 * 128 + 1 * (x 1).val = (k 1).val; rw [e1, hk1]; omega

/-- Input window 1's block at point `t`, read at an entry, is the array as the region finds it at row 10000·t + the entry's row. -/
theorem iblk1_1_apply (c : Dev nD) (t : Fin cfg1.N) (x : S10000x1.Idx) (k : S1700000x1.Idx)
    (hk0 : (k 0).val = 10000 * t.val + (x 0).val) (hk1 : (k 1).val = (x 1).val) :
    (iblk1 V c 1 t : Vec Ideal S10000x1 .f32) x = (V c main_v40 : S1700000x1.Idx → Elt Ideal .f32) k := by
  obtain ⟨-, -, e2, e3, -, -⟩ := idx_facts1 t
  unfold iblk1
  rw [View.read_apply]
  show V c main_v40 _ = V c main_v40 _
  congr 1
  funext a
  apply Fin.ext
  match a with
  | ⟨0, _⟩ => show win1_1.index t 0 * 10000 + 1 * (x 0).val = (k 0).val; rw [e2, hk0]; omega
  | ⟨1, _⟩ => show win1_1.index t 1 * 1 + 1 * (x 1).val = (k 1).val; rw [e3, hk1]; omega

/-- What point `t` writes back is block `t` of `scaleRows` of the arrays as the region finds them. -/
theorem flushed1 (c : Dev nD) (t : Fin cfg1.N) :
    (dat1 V c).flushed 2 t = ((cfg1.win 2).blk t).view.read (Elt Ideal) (scaleRows (V c main_v39) (V c main_v40)) := by
  show (cfg1.win 2).cut (grid1.coords t) ((dat1 V c).after 2 t) = _
  rw [after1_2]
  unfold out1_2
  rw [View.canon_unit_zero hz2]
  simp only [View.ld_unit_zero (S := S10000x128) hz2, View.ld_unit_zero (S := S10000x1) hz2]
  obtain ⟨-, -, -, -, e4, e5⟩ := idx_facts1 t
  funext j
  show k1_pay1 (F := Ideal) (iblk1 V c 0 t) (iblk1 V c 1 t) j = _
  refine (pay1_apply _ _ j).trans ?_
  rw [View.read_apply]
  have hi0 : ((((cfg1.win 2).blk t).view.emb j) 0).val = 10000 * t.val + (j 0).val := by
    show win1_2.index t 0 * 10000 + 1 * (j 0).val = _; rw [e4]; omega
  have hi1 : ((((cfg1.win 2).blk t).view.emb j) 1).val = (j 1).val := by
    show win1_2.index t 1 * 128 + 1 * (j 1).val = _; rw [e5]; omega
  unfold scaleRows
  exact congrArg₂ (fun a b => a * b) (iblk1_0_apply V c t _ _ hi0 hi1) (iblk1_1_apply V c t _ _ hi0 rfl)

/-- An index of the output array is in point `t`'s block iff each coordinate is in the block's range on its axis. -/
theorem mem_blk1 (t : Fin cfg1.N) (i : S1700000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v41).slice (win1_2.rect t)).set ↔ _
  rw [View.set_slice_whole, Rect.mem_set_unit]
  exact Iff.rfl

/-- The blocks tile the output: row `r` is in the block of point `r / 10000`. -/
theorem cover1 (i : S1700000x128.Idx) : ∃ t : Fin cfg1.N, (cfg1.win 2).flush t = true ∧ i ∈ ((cfg1.win 2).blk t).view.set := by
  have hi0 : (i 0).val < 1700000 := (i 0).isLt
  have hi1 : (i 1).val < 128 := (i 1).isLt
  have hN : cfg1.N = 170 := N_1
  obtain ⟨t, ht⟩ : ∃ t : Fin cfg1.N, t.val = (i 0).val / 10000 := ⟨⟨(i 0).val / 10000, by rw [hN]; omega⟩, rfl⟩
  obtain ⟨-, -, -, -, e4, e5⟩ := idx_facts1 t
  refine ⟨t, flush1_2 t, ?_⟩
  rw [mem_blk1]
  intro a
  match a with
  | ⟨0, _⟩ =>
    show win1_2.index t 0 * 10000 ≤ (i 0).val ∧ (i 0).val < win1_2.index t 0 * 10000 + 10000
    rw [e4, ht]; omega
  | ⟨1, _⟩ =>
    show win1_2.index t 1 * 128 ≤ (i 1).val ∧ (i 1).val < win1_2.index t 1 * 128 + 128
    rw [e5]; omega

/-- The output array after the region: `scaleRows` of the arrays as the region finds them. -/
theorem final1 (c : Dev nD) : (dat1 V c).arrAt 2 cfg1.N = scaleRows (V c main_v39) (V c main_v40) :=
  (dat1 V c).arrAt_eq_of_cover 2 (scaleRows (V c main_v39) (V c main_v40)) (fun t _ => flushed1 V c t) (cover1)

end Cert.KernelIdeal.Hand

end
-- ==== Proof.Region2.lean ====
/-
  Region 2: the output array after the grid's 10 points.

  Every point computes a block of rows plus the bias row, rectified, and writes it back as block `t` of the output (rows
  10000·t … 10000·t + 9999). The moving input windows fetch the same rows, the small operands are whole. So what
  point `t` writes back is block `t` of `biasRelu` of the arrays as the region finds them, the blocks tile the output,
  and the output array ends at `biasRelu` of those arrays.
-/
import proofs.«175690_j21294447853629_1_alg».proof.Proof.Gen.KernelIdeal.Frame
import proofs.«175690_j21294447853629_1_alg».proof.Proof.Spec
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps over the grid: a moving window and the output are at block row `t`, block column 0;
    a whole operand is at block (0, 0). -/
theorem idx_facts2 : ∀ t : Fin cfg2.N,
    win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- Input window 0's block at point `t`, read at an entry, is the array as the region finds it at row 10000·t + the entry's row. -/
theorem iblk2_0_apply (c : Dev nD) (t : Fin cfg2.N) (x : S10000x128.Idx) (k : S100000x128.Idx)
    (hk0 : (k 0).val = 10000 * t.val + (x 0).val) (hk1 : (k 1).val = (x 1).val) :
    (iblk2 V c 0 t : Vec Ideal S10000x128 .f32) x = (V c main_v44 : S100000x128.Idx → Elt Ideal .f32) k := by
  obtain ⟨e0, e1, -, -, -, -⟩ := idx_facts2 t
  unfold iblk2
  rw [View.read_apply]
  show V c main_v44 _ = V c main_v44 _
  congr 1
  funext a
  apply Fin.ext
  match a with
  | ⟨0, _⟩ => show win2_0.index t 0 * 10000 + 1 * (x 0).val = (k 0).val; rw [e0, hk0]; omega
  | ⟨1, _⟩ => show win2_0.index t 1 * 128 + 1 * (x 1).val = (k 1).val; rw [e1, hk1]; omega

/-- Input window 1's block at point `t`, read at an entry, is the array as the region finds it at the same entry. -/
theorem iblk2_1_apply (c : Dev nD) (t : Fin cfg2.N) (x : S1x128.Idx) (k : S1x128.Idx)
    (hk0 : (k 0).val = (x 0).val) (hk1 : (k 1).val = (x 1).val) :
    (iblk2 V c 1 t : Vec Ideal S1x128 .f32) x = (V c main_v45 : S1x128.Idx → Elt Ideal .f32) k := by
  obtain ⟨-, -, e2, e3, -, -⟩ := idx_facts2 t
  unfold iblk2
  rw [View.read_apply]
  show V c main_v45 _ = V c main_v45 _
  congr 1
  funext a
  apply Fin.ext
  match a with
  | ⟨0, _⟩ => show win2_1.index t 0 * 1 + 1 * (x 0).val = (k 0).val; rw [e2, hk0]; omega
  | ⟨1, _⟩ => show win2_1.index t 1 * 128 + 1 * (x 1).val = (k 1).val; rw [e3, hk1]; omega

/-- What point `t` writes back is block `t` of `biasRelu` of the arrays as the region finds them. -/
theorem flushed2 (c : Dev nD) (t : Fin cfg2.N) :
    (dat2 V c).flushed 2 t = ((cfg2.win 2).blk t).view.read (Elt Ideal) (biasRelu (V c main_v44) (V c main_v45)) := by
  show (cfg2.win 2).cut (grid2.coords t) ((dat2 V c).after 2 t) = _
  rw [after2_2]
  unfold out2_2
  rw [View.canon_unit_zero hz2]
  simp only [View.ld_unit_zero (S := S10000x128) hz2, View.ld_unit_zero (S := S1x128) hz2]
  obtain ⟨-, -, -, -, e4, e5⟩ := idx_facts2 t
  funext j
  show k2_pay1 (F := Ideal) (iblk2 V c 0 t) (iblk2 V c 1 t) j = _
  refine (pay2_apply _ _ j).trans ?_
  rw [View.read_apply]
  have hi0 : ((((cfg2.win 2).blk t).view.emb j) 0).val = 10000 * t.val + (j 0).val := by
    show win2_2.index t 0 * 10000 + 1 * (j 0).val = _; rw [e4]; omega
  have hi1 : ((((cfg2.win 2).blk t).view.emb j) 1).val = (j 1).val := by
    show win2_2.index t 1 * 128 + 1 * (j 1).val = _; rw [e5]; omega
  unfold biasRelu
  exact congrArg₂ (fun a b => max (a + b) _) (iblk2_0_apply V c t _ _ hi0 hi1) (iblk2_1_apply V c t _ _ rfl hi1)

/-- An index of the output array is in point `t`'s block iff each coordinate is in the block's range on its axis. -/
theorem mem_blk2 (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v46).slice (win2_2.rect t)).set ↔ _
  rw [View.set_slice_whole, Rect.mem_set_unit]
  exact Iff.rfl

/-- The blocks tile the output: row `r` is in the block of point `r / 10000`. -/
theorem cover2 (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 10 := N_2
  obtain ⟨t, ht⟩ : ∃ t : Fin cfg2.N, t.val = (i 0).val / 10000 := ⟨⟨(i 0).val / 10000, by rw [hN]; omega⟩, rfl⟩
  obtain ⟨-, -, -, -, e4, e5⟩ := idx_facts2 t
  refine ⟨t, flush2_2 t, ?_⟩
  rw [mem_blk2]
  intro a
  match a with
  | ⟨0, _⟩ =>
    show win2_2.index t 0 * 10000 ≤ (i 0).val ∧ (i 0).val < win2_2.index t 0 * 10000 + 10000
    rw [e4, ht]; omega
  | ⟨1, _⟩ =>
    show win2_2.index t 1 * 128 ≤ (i 1).val ∧ (i 1).val < win2_2.index t 1 * 128 + 128
    rw [e5]; omega

/-- The output array after the region: `biasRelu` of the arrays as the region finds them. -/
theorem final2 (c : Dev nD) : (dat2 V c).arrAt 2 cfg2.N = biasRelu (V c main_v44) (V c main_v45) :=
  (dat2 V c).arrAt_eq_of_cover 2 (biasRelu (V c main_v44) (V c main_v45)) (fun t _ => flushed2 V c t) (cover2)

end Cert.KernelIdeal.Hand

end
-- ==== Proof.Layer1.lean ====
/-
  The first graph-convolution layer on the kernel's side, boundary by boundary (4 to 8), each buffer at the
  reference's own stage: the product region leaves x · W1; the host gathers its rows by source; the scaling region
  leaves the gathered rows times the edge weights; the host scatter-adds them by target; the bias-and-rectify region
  leaves relu (agg + b1).
-/
import proofs.«175690_j21294447853629_1_alg».proof.Proof.Host0
import proofs.«175690_j21294447853629_1_alg».proof.Proof.Bridge
import proofs.«175690_j21294447853629_1_alg».proof.Proof.Region0
import proofs.«175690_j21294447853629_1_alg».proof.Proof.Region1
import proofs.«175690_j21294447853629_1_alg».proof.Proof.Region2

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The product region's output. -/
theorem W4_v32 : W4 m ρ c (Proc.devRef .tc main_v32) = Cert.ReferenceIdeal.ReadP.val_main_v30 (F := Ideal) (m ((c.tc : Thread nD τ).loc main_arg0)) (m ((c.tc : Thread nD τ).loc main_arg3)) := by
  refine (W4_arr m ρ c 3).trans ((final0 (V3 m ρ) c).trans ?_)
  show linear (W3 m ρ c (Proc.devRef .tc main_arg0)) (W3 m ρ c (Proc.devRef .tc main_arg3)) (W3 m ρ c (Proc.devRef .tc main_v31)) = _
  rw [keep_arg0_0_3, keep_arg3_0_3, W3_v31]
  exact linear1_eq _ _ _ _

theorem W4_v5 : W4 m ρ c (Proc.devRef .tc main_v5) = Cert.ReferenceIdeal.ReadP.val_main_v5 (F := Ideal) (m ((c.tc : Thread nD τ).loc main_arg1)) :=
  (keep_v5_3_4 m ρ c).trans (W3_v5 m ρ c)
theorem W4_v29 : W4 m ρ c (Proc.devRef .tc main_v29) = Cert.ReferenceIdeal.ReadP.val_main_v29 (F := Ideal) (m ((c.tc : Thread nD τ).loc main_arg1)) :=
  (keep_v29_3_4 m ρ c).trans (W3_v29 m ρ c)

set_option maxHeartbeats 8000000 in
/-- The product's rows gathered by edge source. -/
theorem W5_v39 : W5 m ρ c (Proc.devRef .tc main_v39) = Cert.ReferenceIdeal.ReadP.val_main_v38 (F := Ideal) (m ((c.tc : Thread nD τ).loc main_arg0)) (m ((c.tc : Thread nD τ).loc main_arg1)) (m ((c.tc : Thread nD τ).loc main_arg3)) := by
  show StableHlo.after hostOps1 (W4 m ρ c) (Proc.devRef .tc main_v39) = _
  after_results
  rw [W4_v32, W4_v5]
  rfl

set_option maxHeartbeats 8000000 in
/-- The edge weights as a one-column array. -/
theorem W5_v40 : W5 m ρ c (Proc.devRef .tc main_v40) = shapeCast S1700000x1 (Cert.ReferenceIdeal.ReadP.val_main_v29 (F := Ideal) (m ((c.tc : Thread nD τ).loc main_arg1))) shapeCasts_S1700000_S1700000x1 := by
  show StableHlo.after hostOps1 (W4 m ρ c) (Proc.devRef .tc main_v40) = _
  after_results
  rw [W4_v29]
  rfl

/-- The scaling region's output: the messages. -/
theorem W6_v41 : W6 m ρ c (Proc.devRef .tc main_v41) = Cert.ReferenceIdeal.ReadP.val_main_v40 (F := Ideal) (m ((c.tc : Thread nD τ).loc main_arg0)) (m ((c.tc : Thread nD τ).loc main_arg1)) (m ((c.tc : Thread nD τ).loc main_arg3)) := by
  refine (W6_arr m ρ c 2).trans ((final1 (V5 m ρ) c).trans ?_)
  show scaleRows (W5 m ρ c (Proc.devRef .tc main_v39)) (W5 m ρ c (Proc.devRef .tc main_v40)) = _
  rw [W5_v39, W5_v40]
  exact scaleRows_eq _ _ _ _ _

theorem W6_v6 : W6 m ρ c (Proc.devRef .tc main_v6) = Cert.ReferenceIdeal.ReadP.val_main_v6 (F := Ideal) (m ((c.tc : Thread nD τ).loc main_arg1)) :=
  (keep_v6_3_6 m ρ c).trans (W3_v6 m ρ c)

set_option maxHeartbeats 8000000 in
/-- The messages scatter-added by edge target. -/
theorem W7_v44 : W7 m ρ c (Proc.devRef .tc main_v44) = Cert.ReferenceIdeal.ReadP.val_main_v43 (F := Ideal) (m ((c.tc : Thread nD τ).loc main_arg0)) (m ((c.tc : Thread nD τ).loc main_arg1)) (m ((c.tc : Thread nD τ).loc main_arg3)) := by
  show StableHlo.after hostOps2 (W6 m ρ c) (Proc.devRef .tc main_v44) = _
  after_results
  rw [W6_v41, W6_v6]
  rfl

set_option maxHeartbeats 8000000 in
/-- The layer's bias as a one-row array. -/
theorem W7_v45 : W7 m ρ c (Proc.devRef .tc main_v45) = shapeCast S1x128 (m ((c.tc : Thread nD τ).loc main_arg4)) shapeCasts_S128_S1x128 := by
  show StableHlo.after hostOps2 (W6 m ρ c) (Proc.devRef .tc main_v45) = _
  after_results
  rw [keep_arg4_0_6]
  rfl

/-- The bias-and-rectify region's output: the layer's result. -/
theorem W8_v46 : W8 m ρ c (Proc.devRef .tc main_v46) = Cert.ReferenceIdeal.ReadP.val_main_v47 (F := Ideal) (m ((c.tc : Thread nD τ).loc main_arg0)) (m ((c.tc : Thread nD τ).loc main_arg1)) (m ((c.tc : Thread nD τ).loc main_arg3)) (m ((c.tc : Thread nD τ).loc main_arg4)) := by
  refine (W8_arr m ρ c 2).trans ((final2 (V7 m ρ) c).trans ?_)
  show biasRelu (W7 m ρ c (Proc.devRef .tc main_v44)) (W7 m ρ c (Proc.devRef .tc main_v45)) = _
  rw [W7_v44, W7_v45]
  exact biasRelu_eq _ _ _ _ _ _

end Cert.KernelIdeal.Hand

end
-- ==== Proof.Region3.lean ====
/-
  Region 3: the output array after the grid's 10 points.

  Every point computes a block of rows times the weights plus the bias row, and writes it back as block `t` of the output (rows
  10000·t … 10000·t + 9999). The moving input windows fetch the same rows, the small operands are whole. So what
  point `t` writes back is block `t` of `linear` of the arrays as the region finds them, the blocks tile the output,
  and the output array ends at `linear` of those arrays.
-/
import proofs.«175690_j21294447853629_1_alg».proof.Proof.Gen.KernelIdeal.Frame
import proofs.«175690_j21294447853629_1_alg».proof.Proof.Spec
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps over the grid: a moving window and the output are at block row `t`, block column 0;
    a whole operand is at block (0, 0). -/
theorem idx_facts3 : ∀ t : Fin cfg3.N,
    win3_0.index t (0 : Fin 2) = t.val
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = t.val
    ∧ win3_3.index t (1 : Fin 2) = 0 :=
  (by decide +kernel : ∀ t : Fin grid3.N, _)

/-- Input window 0's block at point `t`, read at an entry, is the array as the region finds it at row 10000·t + the entry's row. -/
theorem iblk3_0_apply (c : Dev nD) (t : Fin cfg3.N) (x : S10000x128.Idx) (k : S100000x128.Idx)
    (hk0 : (k 0).val = 10000 * t.val + (x 0).val) (hk1 : (k 1).val = (x 1).val) :
    (iblk3 V c 0 t : Vec Ideal S10000x128 .f32) x = (V c main_v46 : S100000x128.Idx → Elt Ideal .f32) k := by
  obtain ⟨e0, e1, -, -, -, -, -, -⟩ := idx_facts3 t
  unfold iblk3
  rw [View.read_apply]
  show V c main_v46 _ = V c main_v46 _
  congr 1
  funext a
  apply Fin.ext
  match a with
  | ⟨0, _⟩ => show win3_0.index t 0 * 10000 + 1 * (x 0).val = (k 0).val; rw [e0, hk0]; omega
  | ⟨1, _⟩ => show win3_0.index t 1 * 128 + 1 * (x 1).val = (k 1).val; rw [e1, hk1]; omega

/-- Input window 1's block at point `t`, read at an entry, is the array as the region finds it at the same entry. -/
theorem iblk3_1_apply (c : Dev nD) (t : Fin cfg3.N) (x : S128x128.Idx) (k : S128x128.Idx)
    (hk0 : (k 0).val = (x 0).val) (hk1 : (k 1).val = (x 1).val) :
    (iblk3 V c 1 t : Vec Ideal S128x128 .f32) x = (V c main_arg5 : S128x128.Idx → Elt Ideal .f32) k := by
  obtain ⟨-, -, e2, e3, -, -, -, -⟩ := idx_facts3 t
  unfold iblk3
  rw [View.read_apply]
  show V c main_arg5 _ = V c main_arg5 _
  congr 1
  funext a
  apply Fin.ext
  match a with
  | ⟨0, _⟩ => show win3_1.index t 0 * 128 + 1 * (x 0).val = (k 0).val; rw [e2, hk0]; omega
  | ⟨1, _⟩ => show win3_1.index t 1 * 128 + 1 * (x 1).val = (k 1).val; rw [e3, hk1]; omega

/-- Input window 2's block at point `t`, read at an entry, is the array as the region finds it at the same entry. -/
theorem iblk3_2_apply (c : Dev nD) (t : Fin cfg3.N) (x : S1x128.Idx) (k : S1x128.Idx)
    (hk0 : (k 0).val = (x 0).val) (hk1 : (k 1).val = (x 1).val) :
    (iblk3 V c 2 t : Vec Ideal S1x128 .f32) x = (V c main_v48 : S1x128.Idx → Elt Ideal .f32) k := by
  obtain ⟨-, -, -, -, e4, e5, -, -⟩ := idx_facts3 t
  unfold iblk3
  rw [View.read_apply]
  show V c main_v48 _ = V c main_v48 _
  congr 1
  funext a
  apply Fin.ext
  match a with
  | ⟨0, _⟩ => show win3_2.index t 0 * 1 + 1 * (x 0).val = (k 0).val; rw [e4, hk0]; omega
  | ⟨1, _⟩ => show win3_2.index t 1 * 128 + 1 * (x 1).val = (k 1).val; rw [e5, hk1]; omega

/-- What point `t` writes back is block `t` of `linear` of the arrays as the region finds them. -/
theorem flushed3 (c : Dev nD) (t : Fin cfg3.N) :
    (dat3 V c).flushed 3 t = ((cfg3.win 3).blk t).view.read (Elt Ideal) (linear (V c main_v46) (V c main_arg5) (V c main_v48)) := by
  show (cfg3.win 3).cut (grid3.coords t) ((dat3 V c).after 3 t) = _
  rw [after3_3]
  unfold out3_3
  rw [View.canon_unit_zero hz2]
  simp only [View.ld_unit_zero (S := S10000x128) hz2, View.ld_unit_zero (S := S128x128) hz2, View.ld_unit_zero (S := S1x128) hz2]
  obtain ⟨-, -, -, -, -, -, e6, e7⟩ := idx_facts3 t
  funext j
  show k3_pay1 (F := Ideal) (iblk3 V c 0 t) (iblk3 V c 1 t) (iblk3 V c 2 t) j = _
  refine (pay3_apply _ _ _ j).trans ?_
  rw [View.read_apply]
  have hi0 : ((((cfg3.win 3).blk t).view.emb j) 0).val = 10000 * t.val + (j 0).val := by
    show win3_3.index t 0 * 10000 + 1 * (j 0).val = _; rw [e6]; omega
  have hi1 : ((((cfg3.win 3).blk t).view.emb j) 1).val = (j 1).val := by
    show win3_3.index t 1 * 128 + 1 * (j 1).val = _; rw [e7]; omega
  unfold linear
  congr 1
  · refine Finset.sum_congr rfl fun k _ => ?_
    congr 1
    · exact iblk3_0_apply V c t _ _ hi0 rfl
    · exact iblk3_1_apply V c t _ _ rfl hi1
  · exact iblk3_2_apply V c t _ _ rfl hi1

/-- An index of the output array is in point `t`'s block iff each coordinate is in the block's range on its axis. -/
theorem mem_blk3 (t : Fin cfg3.N) (i : S100000x128.Idx) :
    i ∈ ((cfg3.win 3).blk t).view.set ↔ ∀ a : Fin 2, win3_3.index t a * S10000x128.size a ≤ (i a).val ∧ (i a).val < win3_3.index t a * S10000x128.size a + S10000x128.size a := by
  show i ∈ ((View.whole main_v49).slice (win3_3.rect t)).set ↔ _
  rw [View.set_slice_whole, Rect.mem_set_unit]
  exact Iff.rfl

/-- The blocks tile the output: row `r` is in the block of point `r / 10000`. -/
theorem cover3 (i : S100000x128.Idx) : ∃ t : Fin cfg3.N, (cfg3.win 3).flush t = true ∧ i ∈ ((cfg3.win 3).blk t).view.set := by
  have hi0 : (i 0).val < 100000 := (i 0).isLt
  have hi1 : (i 1).val < 128 := (i 1).isLt
  have hN : cfg3.N = 10 := N_3
  obtain ⟨t, ht⟩ : ∃ t : Fin cfg3.N, t.val = (i 0).val / 10000 := ⟨⟨(i 0).val / 10000, by rw [hN]; omega⟩, rfl⟩
  obtain ⟨-, -, -, -, -, -, e6, e7⟩ := idx_facts3 t
  refine ⟨t, flush3_3 t, ?_⟩
  rw [mem_blk3]
  intro a
  match a with
  | ⟨0, _⟩ =>
    show win3_3.index t 0 * 10000 ≤ (i 0).val ∧ (i 0).val < win3_3.index t 0 * 10000 + 10000
    rw [e6, ht]; omega
  | ⟨1, _⟩ =>
    show win3_3.index t 1 * 128 ≤ (i 1).val ∧ (i 1).val < win3_3.index t 1 * 128 + 128
    rw [e7]; omega

/-- The output array after the region: `linear` of the arrays as the region finds them. -/
theorem final3 (c : Dev nD) : (dat3 V c).arrAt 3 cfg3.N = linear (V c main_v46) (V c main_arg5) (V c main_v48) :=
  (dat3 V c).arrAt_eq_of_cover 3 (linear (V c main_v46) (V c main_arg5) (V c main_v48)) (fun t _ => flushed3 V c t) (cover3)

end Cert.KernelIdeal.Hand

end
-- ==== Proof.Region4.lean ====
/-
  Region 4: the output array after the grid's 170 points.

  Every point computes a block of gathered rows, each times its edge weight, and writes it back as block `t` of the output (rows
  10000·t … 10000·t + 9999). The moving input windows fetch the same rows, the small operands are whole. So what
  point `t` writes back is block `t` of `scaleRows` of the arrays as the region finds them, the blocks tile the output,
  and the output array ends at `scaleRows` of those arrays.
-/
import proofs.«175690_j21294447853629_1_alg».proof.Proof.Gen.KernelIdeal.Frame
import proofs.«175690_j21294447853629_1_alg».proof.Proof.Spec
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps over the grid: a moving window and the output are at block row `t`, block column 0;
    a whole operand is at block (0, 0). -/
theorem idx_facts4 : ∀ t : Fin cfg4.N,
    win4_0.index t (0 : Fin 2) = t.val
    ∧ win4_0.index t (1 : Fin 2) = 0
    ∧ win4_1.index t (0 : Fin 2) = t.val
    ∧ win4_1.index t (1 : Fin 2) = 0
    ∧ win4_2.index t (0 : Fin 2) = t.val
    ∧ win4_2.index t (1 : Fin 2) = 0 :=
  (by decide +kernel : ∀ t : Fin grid4.N, _)

/-- Input window 0's block at point `t`, read at an entry, is the array as the region finds it at row 10000·t + the entry's row. -/
theorem iblk4_0_apply (c : Dev nD) (t : Fin cfg4.N) (x : S10000x128.Idx) (k : S1700000x128.Idx)
    (hk0 : (k 0).val = 10000 * t.val + (x 0).val) (hk1 : (k 1).val = (x 1).val) :
    (iblk4 V c 0 t : Vec Ideal S10000x128 .f32) x = (V c main_v56 : S1700000x128.Idx → Elt Ideal .f32) k := by
  obtain ⟨e0, e1, -, -, -, -⟩ := idx_facts4 t
  unfold iblk4
  rw [View.read_apply]
  show V c main_v56 _ = V c main_v56 _
  congr 1
  funext a
  apply Fin.ext
  match a with
  | ⟨0, _⟩ => show win4_0.index t 0 * 10000 + 1 * (x 0).val = (k 0).val; rw [e0, hk0]; omega
  | ⟨1, _⟩ => show win4_0.index t 1 * 128 + 1 * (x 1).val = (k 1).val; rw [e1, hk1]; omega

/-- Input window 1's block at point `t`, read at an entry, is the array as the region finds it at row 10000·t + the entry's row. -/
theorem iblk4_1_apply (c : Dev nD) (t : Fin cfg4.N) (x : S10000x1.Idx) (k : S1700000x1.Idx)
    (hk0 : (k 0).val = 10000 * t.val + (x 0).val) (hk1 : (k 1).val = (x 1).val) :
    (iblk4 V c 1 t : Vec Ideal S10000x1 .f32) x = (V c main_v57 : S1700000x1.Idx → Elt Ideal .f32) k := by
  obtain ⟨-, -, e2, e3, -, -⟩ := idx_facts4 t
  unfold iblk4
  rw [View.read_apply]
  show V c main_v57 _ = V c main_v57 _
  congr 1
  funext a
  apply Fin.ext
  match a with
  | ⟨0, _⟩ => show win4_1.index t 0 * 10000 + 1 * (x 0).val = (k 0).val; rw [e2, hk0]; omega
  | ⟨1, _⟩ => show win4_1.index t 1 * 1 + 1 * (x 1).val = (k 1).val; rw [e3, hk1]; omega

/-- What point `t` writes back is block `t` of `scaleRows` of the arrays as the region finds them. -/
theorem flushed4 (c : Dev nD) (t : Fin cfg4.N) :
    (dat4 V c).flushed 2 t = ((cfg4.win 2).blk t).view.read (Elt Ideal) (scaleRows (V c main_v56) (V c main_v57)) := by
  show (cfg4.win 2).cut (grid4.coords t) ((dat4 V c).after 2 t) = _
  rw [after4_2]
  unfold out4_2
  rw [View.canon_unit_zero hz2]
  simp only [View.ld_unit_zero (S := S10000x128) hz2, View.ld_unit_zero (S := S10000x1) hz2]
  obtain ⟨-, -, -, -, e4, e5⟩ := idx_facts4 t
  funext j
  show k4_pay1 (F := Ideal) (iblk4 V c 0 t) (iblk4 V c 1 t) j = _
  refine (pay4_apply _ _ j).trans ?_
  rw [View.read_apply]
  have hi0 : ((((cfg4.win 2).blk t).view.emb j) 0).val = 10000 * t.val + (j 0).val := by
    show win4_2.index t 0 * 10000 + 1 * (j 0).val = _; rw [e4]; omega
  have hi1 : ((((cfg4.win 2).blk t).view.emb j) 1).val = (j 1).val := by
    show win4_2.index t 1 * 128 + 1 * (j 1).val = _; rw [e5]; omega
  unfold scaleRows
  exact congrArg₂ (fun a b => a * b) (iblk4_0_apply V c t _ _ hi0 hi1) (iblk4_1_apply V c t _ _ hi0 rfl)

/-- An index of the output array is in point `t`'s block iff each coordinate is in the block's range on its axis. -/
theorem mem_blk4 (t : Fin cfg4.N) (i : S1700000x128.Idx) :
    i ∈ ((cfg4.win 2).blk t).view.set ↔ ∀ a : Fin 2, win4_2.index t a * S10000x128.size a ≤ (i a).val ∧ (i a).val < win4_2.index t a * S10000x128.size a + S10000x128.size a := by
  show i ∈ ((View.whole main_v58).slice (win4_2.rect t)).set ↔ _
  rw [View.set_slice_whole, Rect.mem_set_unit]
  exact Iff.rfl

/-- The blocks tile the output: row `r` is in the block of point `r / 10000`. -/
theorem cover4 (i : S1700000x128.Idx) : ∃ t : Fin cfg4.N, (cfg4.win 2).flush t = true ∧ i ∈ ((cfg4.win 2).blk t).view.set := by
  have hi0 : (i 0).val < 1700000 := (i 0).isLt
  have hi1 : (i 1).val < 128 := (i 1).isLt
  have hN : cfg4.N = 170 := N_4
  obtain ⟨t, ht⟩ : ∃ t : Fin cfg4.N, t.val = (i 0).val / 10000 := ⟨⟨(i 0).val / 10000, by rw [hN]; omega⟩, rfl⟩
  obtain ⟨-, -, -, -, e4, e5⟩ := idx_facts4 t
  refine ⟨t, flush4_2 t, ?_⟩
  rw [mem_blk4]
  intro a
  match a with
  | ⟨0, _⟩ =>
    show win4_2.index t 0 * 10000 ≤ (i 0).val ∧ (i 0).val < win4_2.index t 0 * 10000 + 10000
    rw [e4, ht]; omega
  | ⟨1, _⟩ =>
    show win4_2.index t 1 * 128 ≤ (i 1).val ∧ (i 1).val < win4_2.index t 1 * 128 + 128
    rw [e5]; omega

/-- The output array after the region: `scaleRows` of the arrays as the region finds them. -/
theorem final4 (c : Dev nD) : (dat4 V c).arrAt 2 cfg4.N = scaleRows (V c main_v56) (V c main_v57) :=
  (dat4 V c).arrAt_eq_of_cover 2 (scaleRows (V c main_v56) (V c main_v57)) (fun t _ => flushed4 V c t) (cover4)

end Cert.KernelIdeal.Hand

end
-- ==== Proof.Region5.lean ====
/-
  Region 5: the output array after the grid's 10 points.

  Every point computes a block of rows plus the bias row, rectified, and writes it back as block `t` of the output (rows
  10000·t … 10000·t + 9999). The moving input windows fetch the same rows, the small operands are whole. So what
  point `t` writes back is block `t` of `biasRelu` of the arrays as the region finds them, the blocks tile the output,
  and the output array ends at `biasRelu` of those arrays.
-/
import proofs.«175690_j21294447853629_1_alg».proof.Proof.Gen.KernelIdeal.Frame
import proofs.«175690_j21294447853629_1_alg».proof.Proof.Spec
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps over the grid: a moving window and the output are at block row `t`, block column 0;
    a whole operand is at block (0, 0). -/
theorem idx_facts5 : ∀ t : Fin cfg5.N,
    win5_0.index t (0 : Fin 2) = t.val
    ∧ win5_0.index t (1 : Fin 2) = 0
    ∧ win5_1.index t (0 : Fin 2) = 0
    ∧ win5_1.index t (1 : Fin 2) = 0
    ∧ win5_2.index t (0 : Fin 2) = t.val
    ∧ win5_2.index t (1 : Fin 2) = 0 :=
  (by decide +kernel : ∀ t : Fin grid5.N, _)

/-- Input window 0's block at point `t`, read at an entry, is the array as the region finds it at row 10000·t + the entry's row. -/
theorem iblk5_0_apply (c : Dev nD) (t : Fin cfg5.N) (x : S10000x128.Idx) (k : S100000x128.Idx)
    (hk0 : (k 0).val = 10000 * t.val + (x 0).val) (hk1 : (k 1).val = (x 1).val) :
    (iblk5 V c 0 t : Vec Ideal S10000x128 .f32) x = (V c main_v61 : S100000x128.Idx → Elt Ideal .f32) k := by
  obtain ⟨e0, e1, -, -, -, -⟩ := idx_facts5 t
  unfold iblk5
  rw [View.read_apply]
  show V c main_v61 _ = V c main_v61 _
  congr 1
  funext a
  apply Fin.ext
  match a with
  | ⟨0, _⟩ => show win5_0.index t 0 * 10000 + 1 * (x 0).val = (k 0).val; rw [e0, hk0]; omega
  | ⟨1, _⟩ => show win5_0.index t 1 * 128 + 1 * (x 1).val = (k 1).val; rw [e1, hk1]; omega

/-- Input window 1's block at point `t`, read at an entry, is the array as the region finds it at the same entry. -/
theorem iblk5_1_apply (c : Dev nD) (t : Fin cfg5.N) (x : S1x128.Idx) (k : S1x128.Idx)
    (hk0 : (k 0).val = (x 0).val) (hk1 : (k 1).val = (x 1).val) :
    (iblk5 V c 1 t : Vec Ideal S1x128 .f32) x = (V c main_v62 : S1x128.Idx → Elt Ideal .f32) k := by
  obtain ⟨-, -, e2, e3, -, -⟩ := idx_facts5 t
  unfold iblk5
  rw [View.read_apply]
  show V c main_v62 _ = V c main_v62 _
  congr 1
  funext a
  apply Fin.ext
  match a with
  | ⟨0, _⟩ => show win5_1.index t 0 * 1 + 1 * (x 0).val = (k 0).val; rw [e2, hk0]; omega
  | ⟨1, _⟩ => show win5_1.index t 1 * 128 + 1 * (x 1).val = (k 1).val; rw [e3, hk1]; omega

/-- What point `t` writes back is block `t` of `biasRelu` of the arrays as the region finds them. -/
theorem flushed5 (c : Dev nD) (t : Fin cfg5.N) :
    (dat5 V c).flushed 2 t = ((cfg5.win 2).blk t).view.read (Elt Ideal) (biasRelu (V c main_v61) (V c main_v62)) := by
  show (cfg5.win 2).cut (grid5.coords t) ((dat5 V c).after 2 t) = _
  rw [after5_2]
  unfold out5_2
  rw [View.canon_unit_zero hz2]
  simp only [View.ld_unit_zero (S := S10000x128) hz2, View.ld_unit_zero (S := S1x128) hz2]
  obtain ⟨-, -, -, -, e4, e5⟩ := idx_facts5 t
  funext j
  show k5_pay1 (F := Ideal) (iblk5 V c 0 t) (iblk5 V c 1 t) j = _
  refine (pay5_apply _ _ j).trans ?_
  rw [View.read_apply]
  have hi0 : ((((cfg5.win 2).blk t).view.emb j) 0).val = 10000 * t.val + (j 0).val := by
    show win5_2.index t 0 * 10000 + 1 * (j 0).val = _; rw [e4]; omega
  have hi1 : ((((cfg5.win 2).blk t).view.emb j) 1).val = (j 1).val := by
    show win5_2.index t 1 * 128 + 1 * (j 1).val = _; rw [e5]; omega
  unfold biasRelu
  exact congrArg₂ (fun a b => max (a + b) _) (iblk5_0_apply V c t _ _ hi0 hi1) (iblk5_1_apply V c t _ _ rfl hi1)

/-- An index of the output array is in point `t`'s block iff each coordinate is in the block's range on its axis. -/
theorem mem_blk5 (t : Fin cfg5.N) (i : S100000x128.Idx) :
    i ∈ ((cfg5.win 2).blk t).view.set ↔ ∀ a : Fin 2, win5_2.index t a * S10000x128.size a ≤ (i a).val ∧ (i a).val < win5_2.index t a * S10000x128.size a + S10000x128.size a := by
  show i ∈ ((View.whole main_v63).slice (win5_2.rect t)).set ↔ _
  rw [View.set_slice_whole, Rect.mem_set_unit]
  exact Iff.rfl

/-- The blocks tile the output: row `r` is in the block of point `r / 10000`. -/
theorem cover5 (i : S100000x128.Idx) : ∃ t : Fin cfg5.N, (cfg5.win 2).flush t = true ∧ i ∈ ((cfg5.win 2).blk t).view.set := by
  have hi0 : (i 0).val < 100000 := (i 0).isLt
  have hi1 : (i 1).val < 128 := (i 1).isLt
  have hN : cfg5.N = 10 := N_5
  obtain ⟨t, ht⟩ : ∃ t : Fin cfg5.N, t.val = (i 0).val / 10000 := ⟨⟨(i 0).val / 10000, by rw [hN]; omega⟩, rfl⟩
  obtain ⟨-, -, -, -, e4, e5⟩ := idx_facts5 t
  refine ⟨t, flush5_2 t, ?_⟩
  rw [mem_blk5]
  intro a
  match a with
  | ⟨0, _⟩ =>
    show win5_2.index t 0 * 10000 ≤ (i 0).val ∧ (i 0).val < win5_2.index t 0 * 10000 + 10000
    rw [e4, ht]; omega
  | ⟨1, _⟩ =>
    show win5_2.index t 1 * 128 ≤ (i 1).val ∧ (i 1).val < win5_2.index t 1 * 128 + 128
    rw [e5]; omega

/-- The output array after the region: `biasRelu` of the arrays as the region finds them. -/
theorem final5 (c : Dev nD) : (dat5 V c).arrAt 2 cfg5.N = biasRelu (V c main_v61) (V c main_v62) :=
  (dat5 V c).arrAt_eq_of_cover 2 (biasRelu (V c main_v61) (V c main_v62)) (fun t _ => flushed5 V c t) (cover5)

end Cert.KernelIdeal.Hand

end
-- ==== Proof.Layer2.lean ====
/-
  The second graph-convolution layer on the kernel's side, boundary by boundary (9 to 14), each buffer at the
  reference's own stage: h1 · W2, its rows gathered by source, scaled by the edge weights, scatter-added by target,
  relu (agg + b2). The reference recomputes the index vectors and the edge weights for this layer; they are the same
  operations of the same edge list, so the same arrays.
-/
import proofs.«175690_j21294447853629_1_alg».proof.Proof.Layer1
import proofs.«175690_j21294447853629_1_alg».proof.Proof.Bridge
import proofs.«175690_j21294447853629_1_alg».proof.Proof.Region3
import proofs.«175690_j21294447853629_1_alg».proof.Proof.Region4
import proofs.«175690_j21294447853629_1_alg».proof.Proof.Region5

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The first layer's output is still there when the second product region is entered. -/
theorem W9_v46 : W9 m ρ c (Proc.devRef .tc main_v46) = Cert.ReferenceIdeal.ReadP.val_main_v47 (F := Ideal) (m ((c.tc : Thread nD τ).loc main_arg0)) (m ((c.tc : Thread nD τ).loc main_arg1)) (m ((c.tc : Thread nD τ).loc main_arg3)) (m ((c.tc : Thread nD τ).loc main_arg4)) :=
  (keep_v46_8_9 m ρ c).trans (W8_v46 m ρ c)

set_option maxHeartbeats 8000000 in
/-- The second product region's zero bias row. -/
theorem W9_v48 : W9 m ρ c (Proc.devRef .tc main_v48) = (shapeCast S1x128 (broadcastInDim S128 ![] bcast_S_S128 (constant (F := Ideal) S_ .f32 0x00000000#32)) shapeCasts_S128_S1x128) := by
  show StableHlo.after hostOps3 (W8 m ρ c) (Proc.devRef .tc main_v48) = _
  after_results <;> rfl

/-- The product region's output. -/
theorem W10_v49 : W10 m ρ c (Proc.devRef .tc main_v49) = Cert.ReferenceIdeal.ReadP.val_main_v74 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  refine (W10_arr m ρ c 3).trans ((final3 (V9 m ρ) c).trans ?_)
  show linear (W9 m ρ c (Proc.devRef .tc main_v46)) (W9 m ρ c (Proc.devRef .tc main_arg5)) (W9 m ρ c (Proc.devRef .tc main_v48)) = _
  rw [W9_v46, keep_arg5_0_9, W9_v48]
  exact linear2_eq _ _ _ _ _ _ _

theorem W10_v5 : W10 m ρ c (Proc.devRef .tc main_v5) = Cert.ReferenceIdeal.ReadP.val_main_v5 (F := Ideal) (m ((c.tc : Thread nD τ).loc main_arg1)) :=
  (keep_v5_3_10 m ρ c).trans (W3_v5 m ρ c)
theorem W10_v29 : W10 m ρ c (Proc.devRef .tc main_v29) = Cert.ReferenceIdeal.ReadP.val_main_v29 (F := Ideal) (m ((c.tc : Thread nD τ).loc main_arg1)) :=
  (keep_v29_3_10 m ρ c).trans (W3_v29 m ρ c)

set_option maxHeartbeats 8000000 in
/-- The product's rows gathered by edge source. -/
theorem W11_v56 : W11 m ρ c (Proc.devRef .tc main_v56) = Cert.ReferenceIdeal.ReadP.val_main_v82 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  show StableHlo.after hostOps4 (W10 m ρ c) (Proc.devRef .tc main_v56) = _
  after_results
  rw [W10_v49, W10_v5]
  rfl

set_option maxHeartbeats 8000000 in
/-- The edge weights as a one-column array. -/
theorem W11_v57 : W11 m ρ c (Proc.devRef .tc main_v57) = shapeCast S1700000x1 (Cert.ReferenceIdeal.ReadP.val_main_v29 (F := Ideal) (m ((c.tc : Thread nD τ).loc main_arg1))) shapeCasts_S1700000_S1700000x1 := by
  show StableHlo.after hostOps4 (W10 m ρ c) (Proc.devRef .tc main_v57) = _
  after_results
  rw [W10_v29]
  rfl

/-- The scaling region's output: the messages. -/
theorem W12_v58 : W12 m ρ c (Proc.devRef .tc main_v58) = Cert.ReferenceIdeal.ReadP.val_main_v84 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  refine (W12_arr m ρ c 2).trans ((final4 (V11 m ρ) c).trans ?_)
  show scaleRows (W11 m ρ c (Proc.devRef .tc main_v56)) (W11 m ρ c (Proc.devRef .tc main_v57)) = _
  rw [W11_v56, W11_v57]
  exact scaleRows_eq _ _ _ _ _

theorem W12_v6 : W12 m ρ c (Proc.devRef .tc main_v6) = Cert.ReferenceIdeal.ReadP.val_main_v6 (F := Ideal) (m ((c.tc : Thread nD τ).loc main_arg1)) :=
  (keep_v6_3_12 m ρ c).trans (W3_v6 m ρ c)

set_option maxHeartbeats 8000000 in
/-- The messages scatter-added by edge target. -/
theorem W13_v61 : W13 m ρ c (Proc.devRef .tc main_v61) = Cert.ReferenceIdeal.ReadP.val_main_v87 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  show StableHlo.after hostOps5 (W12 m ρ c) (Proc.devRef .tc main_v61) = _
  after_results
  rw [W12_v58, W12_v6]
  rfl

set_option maxHeartbeats 8000000 in
/-- The layer's bias as a one-row array. -/
theorem W13_v62 : W13 m ρ c (Proc.devRef .tc main_v62) = shapeCast S1x128 (m ((c.tc : Thread nD τ).loc main_arg6)) shapeCasts_S128_S1x128 := by
  show StableHlo.after hostOps5 (W12 m ρ c) (Proc.devRef .tc main_v62) = _
  after_results
  rw [keep_arg6_0_12]
  rfl

/-- The bias-and-rectify region's output: the layer's result. -/
theorem W14_v63 : W14 m ρ c (Proc.devRef .tc main_v63) = Cert.ReferenceIdeal.ReadP.val_main_v91 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  refine (W14_arr m ρ c 2).trans ((final5 (V13 m ρ) c).trans ?_)
  show biasRelu (W13 m ρ c (Proc.devRef .tc main_v61)) (W13 m ρ c (Proc.devRef .tc main_v62)) = _
  rw [W13_v61, W13_v62]
  exact biasRelu_eq _ _ _ _ _ _

end Cert.KernelIdeal.Hand

end
-- ==== Proof.Region6.lean ====
/-
  Region 6: the output array after the grid's 1 point.

  Every point computes the pooled rows times the output weights plus the output bias, and writes it back as block `t` of the output (rows
  64·t … 64·t + 63). The moving input windows fetch the same rows, the small operands are whole. So what
  point `t` writes back is block `t` of `linearOut` of the arrays as the region finds them, the blocks tile the output,
  and the output array ends at `linearOut` of those arrays.
-/
import proofs.«175690_j21294447853629_1_alg».proof.Proof.Gen.KernelIdeal.Frame
import proofs.«175690_j21294447853629_1_alg».proof.Proof.Spec
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps over the grid: a moving window and the output are at block row `t`, block column 0;
    a whole operand is at block (0, 0). -/
theorem idx_facts6 : ∀ t : Fin cfg6.N,
    win6_0.index t (0 : Fin 2) = 0
    ∧ win6_0.index t (1 : Fin 2) = 0
    ∧ win6_1.index t (0 : Fin 2) = 0
    ∧ win6_1.index t (1 : Fin 2) = 0
    ∧ win6_2.index t (0 : Fin 2) = 0
    ∧ win6_2.index t (1 : Fin 2) = 0
    ∧ win6_3.index t (0 : Fin 2) = 0
    ∧ win6_3.index t (1 : Fin 2) = 0 :=
  (by decide +kernel : ∀ t : Fin grid6.N, _)

/-- Input window 0's block at point `t`, read at an entry, is the array as the region finds it at the same entry. -/
theorem iblk6_0_apply (c : Dev nD) (t : Fin cfg6.N) (x : S64x128.Idx) (k : S64x128.Idx)
    (hk0 : (k 0).val = (x 0).val) (hk1 : (k 1).val = (x 1).val) :
    (iblk6 V c 0 t : Vec Ideal S64x128 .f32) x = (V c main_v75 : S64x128.Idx → Elt Ideal .f32) k := by
  obtain ⟨e0, e1, -, -, -, -, -, -⟩ := idx_facts6 t
  unfold iblk6
  rw [View.read_apply]
  show V c main_v75 _ = V c main_v75 _
  congr 1
  funext a
  apply Fin.ext
  match a with
  | ⟨0, _⟩ => show win6_0.index t 0 * 64 + 1 * (x 0).val = (k 0).val; rw [e0, hk0]; omega
  | ⟨1, _⟩ => show win6_0.index t 1 * 128 + 1 * (x 1).val = (k 1).val; rw [e1, hk1]; omega

/-- Input window 1's block at point `t`, read at an entry, is the array as the region finds it at the same entry. -/
theorem iblk6_1_apply (c : Dev nD) (t : Fin cfg6.N) (x : S128x2.Idx) (k : S128x2.Idx)
    (hk0 : (k 0).val = (x 0).val) (hk1 : (k 1).val = (x 1).val) :
    (iblk6 V c 1 t : Vec Ideal S128x2 .f32) x = (V c main_arg7 : S128x2.Idx → Elt Ideal .f32) k := by
  obtain ⟨-, -, e2, e3, -, -, -, -⟩ := idx_facts6 t
  unfold iblk6
  rw [View.read_apply]
  show V c main_arg7 _ = V c main_arg7 _
  congr 1
  funext a
  apply Fin.ext
  match a with
  | ⟨0, _⟩ => show win6_1.index t 0 * 128 + 1 * (x 0).val = (k 0).val; rw [e2, hk0]; omega
  | ⟨1, _⟩ => show win6_1.index t 1 * 2 + 1 * (x 1).val = (k 1).val; rw [e3, hk1]; omega

/-- Input window 2's block at point `t`, read at an entry, is the array as the region finds it at the same entry. -/
theorem iblk6_2_apply (c : Dev nD) (t : Fin cfg6.N) (x : S1x2.Idx) (k : S1x2.Idx)
    (hk0 : (k 0).val = (x 0).val) (hk1 : (k 1).val = (x 1).val) :
    (iblk6 V c 2 t : Vec Ideal S1x2 .f32) x = (V c main_v76 : S1x2.Idx → Elt Ideal .f32) k := by
  obtain ⟨-, -, -, -, e4, e5, -, -⟩ := idx_facts6 t
  unfold iblk6
  rw [View.read_apply]
  show V c main_v76 _ = V c main_v76 _
  congr 1
  funext a
  apply Fin.ext
  match a with
  | ⟨0, _⟩ => show win6_2.index t 0 * 1 + 1 * (x 0).val = (k 0).val; rw [e4, hk0]; omega
  | ⟨1, _⟩ => show win6_2.index t 1 * 2 + 1 * (x 1).val = (k 1).val; rw [e5, hk1]; omega

/-- What point `t` writes back is block `t` of `linearOut` of the arrays as the region finds them. -/
theorem flushed6 (c : Dev nD) (t : Fin cfg6.N) :
    (dat6 V c).flushed 3 t = ((cfg6.win 3).blk t).view.read (Elt Ideal) (linearOut (V c main_v75) (V c main_arg7) (V c main_v76)) := by
  show (cfg6.win 3).cut (grid6.coords t) ((dat6 V c).after 3 t) = _
  rw [after6_3]
  unfold out6_3
  rw [View.canon_unit_zero hz2]
  simp only [View.ld_unit_zero (S := S64x128) hz2, View.ld_unit_zero (S := S128x2) hz2, View.ld_unit_zero (S := S1x2) hz2]
  obtain ⟨-, -, -, -, -, -, e6, e7⟩ := idx_facts6 t
  funext j
  show k6_pay1 (F := Ideal) (iblk6 V c 0 t) (iblk6 V c 1 t) (iblk6 V c 2 t) j = _
  refine (pay6_apply _ _ _ j).trans ?_
  rw [View.read_apply]
  have hi0 : ((((cfg6.win 3).blk t).view.emb j) 0).val = (j 0).val := by
    show win6_3.index t 0 * 64 + 1 * (j 0).val = _; rw [e6]; omega
  have hi1 : ((((cfg6.win 3).blk t).view.emb j) 1).val = (j 1).val := by
    show win6_3.index t 1 * 2 + 1 * (j 1).val = _; rw [e7]; omega
  unfold linearOut
  congr 1
  · refine Finset.sum_congr rfl fun k _ => ?_
    congr 1
    · exact iblk6_0_apply V c t _ _ hi0 rfl
    · exact iblk6_1_apply V c t _ _ rfl hi1
  · exact iblk6_2_apply V c t _ _ rfl hi1

/-- An index of the output array is in point `t`'s block iff each coordinate is in the block's range on its axis. -/
theorem mem_blk6 (t : Fin cfg6.N) (i : S64x2.Idx) :
    i ∈ ((cfg6.win 3).blk t).view.set ↔ ∀ a : Fin 2, win6_3.index t a * S64x2.size a ≤ (i a).val ∧ (i a).val < win6_3.index t a * S64x2.size a + S64x2.size a := by
  show i ∈ ((View.whole main_v77).slice (win6_3.rect t)).set ↔ _
  rw [View.set_slice_whole, Rect.mem_set_unit]
  exact Iff.rfl

/-- The blocks tile the output: row `r` is in the block of point `r / 64`. -/
theorem cover6 (i : S64x2.Idx) : ∃ t : Fin cfg6.N, (cfg6.win 3).flush t = true ∧ i ∈ ((cfg6.win 3).blk t).view.set := by
  have hi0 : (i 0).val < 64 := (i 0).isLt
  have hi1 : (i 1).val < 2 := (i 1).isLt
  have hN : cfg6.N = 1 := N_6
  obtain ⟨t, ht⟩ : ∃ t : Fin cfg6.N, t.val = (i 0).val / 64 := ⟨⟨(i 0).val / 64, by rw [hN]; omega⟩, rfl⟩
  obtain ⟨-, -, -, -, -, -, e6, e7⟩ := idx_facts6 t
  refine ⟨t, flush6_3 t, ?_⟩
  rw [mem_blk6]
  intro a
  match a with
  | ⟨0, _⟩ =>
    show win6_3.index t 0 * 64 ≤ (i 0).val ∧ (i 0).val < win6_3.index t 0 * 64 + 64
    rw [e6]; omega
  | ⟨1, _⟩ =>
    show win6_3.index t 1 * 2 ≤ (i 1).val ∧ (i 1).val < win6_3.index t 1 * 2 + 2
    rw [e7]; omega

/-- The output array after the region: `linearOut` of the arrays as the region finds them. -/
theorem final6 (c : Dev nD) : (dat6 V c).arrAt 3 cfg6.N = linearOut (V c main_v75) (V c main_arg7) (V c main_v76) :=
  (dat6 V c).arrAt_eq_of_cover 3 (linearOut (V c main_v75) (V c main_arg7) (V c main_v76)) (fun t _ => flushed6 V c t) (cover6)

end Cert.KernelIdeal.Hand

end
-- ==== Proof.Out.lean ====
/-
  The pooling and the output layer on the kernel's side (boundaries 15 and 16).

  The host scatter-adds the second layer's rows by graph id, counts the nodes per graph, and divides: the
  reference's mean pooling, operation for operation. The last region leaves pooled · Wlin + blin, which is the
  reference's result.
-/
import proofs.«175690_j21294447853629_1_alg».proof.Proof.Layer2
import proofs.«175690_j21294447853629_1_alg».proof.Proof.Region6

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

set_option maxHeartbeats 8000000 in
/-- The pooled features. -/
theorem W15_v75 : W15 m ρ c (Proc.devRef .tc main_v75) = Cert.ReferenceIdeal.ReadP.val_main_v103 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  show StableHlo.after hostOps6 (W14 m ρ c) (Proc.devRef .tc main_v75) = _
  after_results
  rw [W14_v63, keep_arg2_0_14]
  rfl

set_option maxHeartbeats 8000000 in
/-- The output bias as a one-row array. -/
theorem W15_v76 : W15 m ρ c (Proc.devRef .tc main_v76) = shapeCast S1x2 (m ((c.tc : Thread nD τ).loc main_arg8)) shapeCasts_S2_S1x2 := by
  show StableHlo.after hostOps6 (W14 m ρ c) (Proc.devRef .tc main_v76) = _
  after_results
  rw [keep_arg8_0_14]
  rfl

/-- THE KERNEL'S RESULT: the reference's last stage of the nine arguments. -/
theorem W16_v77 : W16 m ρ c (Proc.devRef .tc main_v77) = Cert.ReferenceIdeal.ReadP.val_main_v107 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (W16_arr m ρ c 3).trans ((final6 (V15 m ρ) c).trans ?_)
  show linearOut (W15 m ρ c (Proc.devRef .tc main_v75)) (W15 m ρ c (Proc.devRef .tc main_arg7)) (W15 m ρ c (Proc.devRef .tc main_v76)) = _
  rw [W15_v75, keep_arg7_0_15, W15_v76]
  exact linearOut_eq _ _ _ _ _ _ _ _ _ _

end Cert.KernelIdeal.Hand

end
-- ==== Proof.lean ====
/-
  A two-layer graph convolution with mean pooling and a linear output layer, computed with seven pallas regions,
  against its plain jnp reference: the two programs end with equal results over the extended reals.

  Both programs build, from the edge list, the source and target index vectors with one self loop per node appended
  and the symmetric edge weights dinv[r] · dinv[c]; per layer they multiply the node features by the layer's weight
  matrix, gather the product's rows by source, scale each gathered row by its edge's weight, scatter-add the rows by
  target, add the layer's bias and rectify; then they average the rows of each graph and apply the output layer.
  The gathers, the scatter-adds, the index arithmetic, the degree count and the pooling are the same host
  operations on both sides. The kernel differs only where a region stands for host arithmetic:
    * a product region computes rows × weights on the matrix unit from bf16 casts (the identity on extended reals)
      and adds a bias row that is zero for the two hidden layers: Σₖ a(r,k) · w(k,q) + 0 = Σₖ a(r,k) · w(k,q);
    * the scaling region computes g · n where the reference computes n · g;
    * the bias-and-rectify region computes max (a + b) 0, as the reference's relu (a + b) does.
  Addition of zero and commutativity of the product hold on all extended reals, so the precondition is not used.

  The kernel's run names its result as the last of seventeen segment-boundary contents (KernelRun); each region's
  output array is one whole-array function of the arrays the region finds (Region0 … Region6 over Spec and the
  payload readings); those functions are the reference's host operations (Bridge); and the boundary contents are
  followed from the launch to the result (Keep, Host0, Layer1, Layer2, Out), each buffer at the reference's own
  stage. The reference's run is its host operations composed.
-/
import proofs.«175690_j21294447853629_1_alg».proof.Defs
import proofs.«175690_j21294447853629_1_alg».proof.Proof.Gen.Kernel
import proofs.«175690_j21294447853629_1_alg».proof.Proof.Gen.Kernel.Frame
import proofs.«175690_j21294447853629_1_alg».proof.Proof.Gen.KernelIdeal
import proofs.«175690_j21294447853629_1_alg».proof.Proof.Gen.KernelIdeal.Frame
import proofs.«175690_j21294447853629_1_alg».proof.Proof.Gen.ReferenceIdeal
import proofs.«175690_j21294447853629_1_alg».proof.Proof.Gen.Pre_finite_inputs
import proofs.«175690_j21294447853629_1_alg».proof.Proof.RefRun
import proofs.«175690_j21294447853629_1_alg».proof.Proof.RefRead
import proofs.«175690_j21294447853629_1_alg».proof.Proof.KernelRun
import proofs.«175690_j21294447853629_1_alg».proof.Proof.Out

set_option maxRecDepth 16384

noncomputable section

namespace Cert.Proof

open Idealize.ShloMosaic Idealize.ShloMosaic.TcCoe Idealize.SL.Sem

/-- The word-level kernel terminates, nothing faulting, its arguments unchanged: the generated frame. -/
theorem frame_k : @Cert.frame_Kernel Cert.Kernel.Gen.facts Cert.Pre_finite_inputs.Gen.facts :=
  fun m ρ _ => Cert.Kernel.Gen.frame m ρ

/-- The idealized kernel terminates, nothing faulting, its arguments unchanged: the generated frame. -/
theorem frame_ki : @Cert.frame_KernelIdeal Cert.KernelIdeal.Gen.facts Cert.Pre_finite_inputs.Gen.facts :=
  fun m ρ _ => Cert.KernelIdeal.Gen.frame m ρ

/-- The idealized reference terminates, nothing faulting, its arguments unchanged: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.ValueP.run (F := Ideal) m ρ)

/-- From memories agreeing on the nine arguments both idealized programs end with the reference's last stage of
    those arguments in their result buffers. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.ReferenceIdeal.ReadP.val_main_v107 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.Hand.W16_v77 m ρ c), (h c).2⟩)
      (Cert.KernelIdeal.Hand.run_named (F := Ideal) m ρ)
  · refine (θ_run Cert.ReferenceIdeal.defs _ _).mono (fun _ h c => ⟨?_, (h c).2⟩)
      (Cert.ReferenceIdeal.ValueP.run (F := Ideal) m' ρ')
    obtain ⟨e0, e1, e2, e3, e4, e5, e6, e7, e8⟩ := hagree c
    rw [(h c).1, Cert.ReferenceIdeal.ReadP.val_main_v107_eq, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
